-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2048x1024 .f32) (main_arg1 : FVec F S2048x1024 .f32) (main_arg2 : FVec F S2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S256x1024 : Shape := ⟨2, ![256, 1024]⟩
abbrev S256x2048 : Shape := ⟨2, ![256, 2048]⟩
abbrev S256x64 : Shape := ⟨2, ![256, 64]⟩
abbrev S2048x64 : Shape := ⟨2, ![2048, 64]⟩
abbrev S256 : Shape := ⟨1, ![256]⟩
abbrev S256x1 : Shape := ⟨2, ![256, 1]⟩

abbrev nBuf : Space → Nat
  | .hbm => 23
  | .vmem => 26
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1x1024, .f32⟩
  | .hbm, ⟨16, _⟩ => ⟨S2048x1024, .bf16⟩
  | .hbm, ⟨17, _⟩ => ⟨S1x1024, .f32⟩
  | .hbm, ⟨18, _⟩ => ⟨S2048x1024, .bf16⟩
  | .hbm, ⟨19, _⟩ => ⟨S1x1024, .f32⟩
  | .hbm, ⟨20, _⟩ => ⟨S2048x1024, .bf16⟩
  | .hbm, ⟨21, _⟩ => ⟨S1x1024, .f32⟩
  | .hbm, ⟨22, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1024x1024, .bf16⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S256x1024, .bf16⟩
  | .local _ .vmem, ⟨19, _⟩ => ⟨S256x1024, .bf16⟩
  | .local _ .vmem, ⟨20, _⟩ => ⟨S2048x1024, .bf16⟩
  | .local _ .vmem, ⟨21, _⟩ => ⟨S2048x1024, .bf16⟩
  | .local _ .vmem, ⟨22, _⟩ => ⟨S1024x1024, .bf16⟩
  | .local _ .vmem, ⟨23, _⟩ => ⟨S1x1024, .f32⟩
  | .local _ .vmem, ⟨24, _⟩ => ⟨S256x1024, .f32⟩
  | .local _ .vmem, ⟨25, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S2048x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1024x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S256x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  slices_S256x1024_o0_0_S256x64 : S256x1024.Slices ![0, 0] S256x64
  slices_S2048x1024_o0_0_S2048x64 : S2048x1024.Slices ![0, 0] S2048x64
  reduces_S256x2048_S256 : S256x2048.Reduces [1] S256
  shapeCasts_S256_S256x1 : S256.ShapeCasts S256x1
  broadcasts_S256x1_S256x2048 : S256x1.Broadcasts S256x2048
  slices_S256x1024_o0_64_S256x64 : S256x1024.Slices ![0, 64] S256x64
  slices_S2048x1024_o0_64_S2048x64 : S2048x1024.Slices ![0, 64] S2048x64
  slices_S256x1024_o0_128_S256x64 : S256x1024.Slices ![0, 128] S256x64
  slices_S2048x1024_o0_128_S2048x64 : S2048x1024.Slices ![0, 128] S2048x64
  slices_S256x1024_o0_192_S256x64 : S256x1024.Slices ![0, 192] S256x64
  slices_S2048x1024_o0_192_S2048x64 : S2048x1024.Slices ![0, 192] S2048x64
  slices_S256x1024_o0_256_S256x64 : S256x1024.Slices ![0, 256] S256x64
  slices_S2048x1024_o0_256_S2048x64 : S2048x1024.Slices ![0, 256] S2048x64
  slices_S256x1024_o0_320_S256x64 : S256x1024.Slices ![0, 320] S256x64
  slices_S2048x1024_o0_320_S2048x64 : S2048x1024.Slices ![0, 320] S2048x64
  slices_S256x1024_o0_384_S256x64 : S256x1024.Slices ![0, 384] S256x64
  slices_S2048x1024_o0_384_S2048x64 : S2048x1024.Slices ![0, 384] S2048x64
  slices_S256x1024_o0_448_S256x64 : S256x1024.Slices ![0, 448] S256x64
  slices_S2048x1024_o0_448_S2048x64 : S2048x1024.Slices ![0, 448] S2048x64
  slices_S256x1024_o0_512_S256x64 : S256x1024.Slices ![0, 512] S256x64
  slices_S2048x1024_o0_512_S2048x64 : S2048x1024.Slices ![0, 512] S2048x64
  slices_S256x1024_o0_576_S256x64 : S256x1024.Slices ![0, 576] S256x64
  slices_S2048x1024_o0_576_S2048x64 : S2048x1024.Slices ![0, 576] S2048x64
  slices_S256x1024_o0_640_S256x64 : S256x1024.Slices ![0, 640] S256x64
  slices_S2048x1024_o0_640_S2048x64 : S2048x1024.Slices ![0, 640] S2048x64
  slices_S256x1024_o0_704_S256x64 : S256x1024.Slices ![0, 704] S256x64
  slices_S2048x1024_o0_704_S2048x64 : S2048x1024.Slices ![0, 704] S2048x64
  slices_S256x1024_o0_768_S256x64 : S256x1024.Slices ![0, 768] S256x64
  slices_S2048x1024_o0_768_S2048x64 : S2048x1024.Slices ![0, 768] S2048x64
  slices_S256x1024_o0_832_S256x64 : S256x1024.Slices ![0, 832] S256x64
  slices_S2048x1024_o0_832_S2048x64 : S2048x1024.Slices ![0, 832] S2048x64
  slices_S256x1024_o0_896_S256x64 : S256x1024.Slices ![0, 896] S256x64
  slices_S2048x1024_o0_896_S2048x64 : S2048x1024.Slices ![0, 896] S2048x64
  slices_S256x1024_o0_960_S256x64 : S256x1024.Slices ![0, 960] S256x64
  slices_S2048x1024_o0_960_S2048x64 : S2048x1024.Slices ![0, 960] S2048x64
  broadcasts_S1x1024_S256x1024 : S1x1024.Broadcasts S256x1024
  dot_S512x1024_S1024x1024_S512x1024_1_1_0_0_n_n_wf : DotDims.WF S512x1024 S1024x1024 S512x1024 [1] [1] [0] [0] [] []
  dot_S256x64_S2048x64_S256x2048_1_1_0_0_n_n_wf : DotDims.WF S256x64 S2048x64 S256x2048 [1] [1] [0] [0] [] []
  dot_S256x2048_S2048x1024_S256x1024_1_0_0_1_n_n_wf : DotDims.WF S256x2048 S2048x1024 S256x1024 [1] [0] [0] [1] [] []
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x1024.size a
  hwx0_0 : ∀ i : grid0.Coords, EltTy.bits .f32 = 32 ∨ (Rect.block (s := S2048x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S2048x1024.size a
  hwx0_3 : ∀ i : grid0.Coords, EltTy.bits .bf16 = 32 ∨ (Rect.block (s := S2048x1024) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S2048x1024.size a
  hwx1_0 : ∀ i : grid1.Coords, EltTy.bits .f32 = 32 ∨ (Rect.block (s := S2048x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S2048x1024.size a
  hwx1_3 : ∀ i : grid1.Coords, EltTy.bits .bf16 = 32 ∨ (Rect.block (s := S2048x1024) S512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S2048x1024.size a
  hwx2_0 : ∀ i : grid2.Coords, EltTy.bits .f32 = 32 ∨ (Rect.block (s := S2048x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S2048x1024.size a
  hwx2_3 : ∀ i : grid2.Coords, EltTy.bits .bf16 = 32 ∨ (Rect.block (s := S2048x1024) S512x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x1024.size a ≤ S2048x1024.size a
  hwx3_0 : ∀ i : grid3.Coords, EltTy.bits .bf16 = 32 ∨ (Rect.block (s := S2048x1024) S256x1024.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2048x1024.size a ≤ S2048x1024.size a
  hwx3_1 : ∀ i : grid3.Coords, EltTy.bits .bf16 = 32 ∨ (Rect.block (s := S2048x1024) S2048x1024.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S2048x1024.size a ≤ S2048x1024.size a
  hwx3_2 : ∀ i : grid3.Coords, EltTy.bits .bf16 = 32 ∨ (Rect.block (s := S2048x1024) S2048x1024.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S1024x1024.size a
  hwx3_3 : ∀ i : grid3.Coords, EltTy.bits .bf16 = 32 ∨ (Rect.block (s := S1024x1024) S1024x1024.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S256x1024.size a ≤ S2048x1024.size a
  hwx3_5 : ∀ i : grid3.Coords, EltTy.bits .f32 = 32 ∨ (Rect.block (s := S2048x1024) S256x1024.size (cc3_transform_5 i) (hinb3_5 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v5) S256x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S2048x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v9) S2048x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v3) S1024x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v10) S1x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v11) S256x1024.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S2048x16x64 : Shape := ⟨3, ![2048, 16, 64]⟩
abbrev S16x2048x64 : Shape := ⟨3, ![16, 2048, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩
abbrev S16x2048x1024 : Shape := ⟨3, ![16, 2048, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S2048x1024, .f32⟩
  | .hbm, ⟨13, _⟩ => ⟨S1x1024, .f32⟩
  | .hbm, ⟨14, _⟩ => ⟨S2048x1024, .f32⟩
  | .hbm, ⟨15, _⟩ => ⟨S2048x1024, .f32⟩
  | .hbm, ⟨16, _⟩ => ⟨S2048x16x64, .f32⟩
  | .hbm, ⟨17, _⟩ => ⟨S16x2048x64, .f32⟩
  | .hbm, ⟨18, _⟩ => ⟨S1024x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x16x64, .f32⟩
  | .hbm, ⟨24, _⟩ => ⟨S16x2048x64, .f32⟩
  | .hbm, ⟨25, _⟩ => ⟨S16x2048x2048, .f32⟩
  | .hbm, ⟨26, _⟩ => ⟨S_, .f32⟩
  | .hbm, ⟨27, _⟩ => ⟨S_, .f32⟩
  | .hbm, ⟨28, _⟩ => ⟨S16x2048x2048, .f32⟩
  | .hbm, ⟨29, _⟩ => ⟨S16x2048x2048, .f32⟩
  | .hbm, ⟨30, _⟩ => ⟨S_, .f32⟩
  | .hbm, ⟨31, _⟩ => ⟨S16x2048, .f32⟩
  | .hbm, ⟨32, _⟩ => ⟨S_, .f32⟩
  | .hbm, ⟨33, _⟩ => ⟨S16x2048, .f32⟩
  | .hbm, ⟨34, _⟩ => ⟨S16x2048, .f32⟩
  | .hbm, ⟨35, _⟩ => ⟨S16x2048x1, .f32⟩
  | .hbm, ⟨36, _⟩ => ⟨S16x2048x2048, .f32⟩
  | .hbm, ⟨37, _⟩ => ⟨S16x2048x2048, .f32⟩
  | .hbm, ⟨38, _⟩ => ⟨S16x2048x2048, .f32⟩
  | .hbm, ⟨39, _⟩ => ⟨S_, .f32⟩
  | .hbm, ⟨40, _⟩ => ⟨S16x2048, .f32⟩
  | .hbm, ⟨41, _⟩ => ⟨S16x2048x1, .f32⟩
  | .hbm, ⟨42, _⟩ => ⟨S16x2048x2048, .f32⟩
  | .hbm, ⟨43, _⟩ => ⟨S16x2048x2048, .f32⟩
  | .hbm, ⟨44, _⟩ => ⟨S1024x1024, .f32⟩
  | .hbm, ⟨45, _⟩ => ⟨S2048x1024, .f32⟩
  | .hbm, ⟨46, _⟩ => ⟨S1x1024, .f32⟩
  | .hbm, ⟨47, _⟩ => ⟨S2048x1024, .f32⟩
  | .hbm, ⟨48, _⟩ => ⟨S2048x1024, .f32⟩
  | .hbm, ⟨49, _⟩ => ⟨S16x2048x1024, .f32⟩
  | .hbm, ⟨50, _⟩ => ⟨S_, .f32⟩
  | .hbm, ⟨51, _⟩ => ⟨S2048x1024, .f32⟩
  | .hbm, ⟨52, _⟩ => ⟨S_, .f32⟩
  | .hbm, ⟨53, _⟩ => ⟨S2048x1024, .f32⟩
  | .hbm, ⟨54, _⟩ => ⟨S2048x1024, .f32⟩
  | .hbm, ⟨55, _⟩ => ⟨S1024x1024, .f32⟩
  | .hbm, ⟨56, _⟩ => ⟨S2048x1024, .f32⟩
  | .hbm, ⟨57, _⟩ => ⟨S1x1024, .f32⟩
  | .hbm, ⟨58, _⟩ => ⟨S2048x1024, .f32⟩
  | .hbm, ⟨59, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  shapeCasts_S2048x1024_S2048x16x64 : S2048x1024.ShapeCasts S2048x16x64
  transposes_S2048x16x64_S16x2048x64_1_0_2 : S2048x16x64.Transposes [1, 0, 2] S16x2048x64
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  reducesTo_S16x2048x1024_S2048x1024_d0 : S16x2048x1024.ReducesTo [0] S2048x1024
  bcast_S_S2048x1024 : S_.BroadcastsInDim S2048x1024 (![] : Fin 0 → Fin S2048x1024.rank)
  dot_S2048x1024_S1024x1024_S2048x1024_1_0_0_1_n_n_wf : DotDims.WF S2048x1024 S1024x1024 S2048x1024 [1] [0] [0] [1] [] []
  dot_S16x2048x64_S16x2048x64_S16x2048x2048_2_2_1_1_0_0_wf : DotDims.WF S16x2048x64 S16x2048x64 S16x2048x2048 [2] [2] [1] [1] [0] [0]
  dot_S16x2048x2048_S2048x1024_S16x2048x1024_2_0_01_1_n_n_wf : DotDims.WF S16x2048x2048 S2048x1024 S16x2048x1024 [2] [0] [0, 1] [1] [] []

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S2048x1024_S16x2048x1024_2_0_01_1_n_n : DotDims S16x2048x2048 S2048x1024 S16x2048x1024 where
  lhsContracting := [2]
  rhsContracting := [0]
  lhsNonContracting := [0, 1]
  rhsNonContracting := [1]
  lhsBatch := []
  rhsBatch := []
  wf := dot_S16x2048x2048_S2048x1024_S16x2048x1024_2_0_01_1_n_n_wf

class Facts : Prop extends Facts₀ where

variable [Facts]
-- ==== Proof.KernelRun.lean ====
import proofs.«136627_j74646531605063_2_alg».proof.Proof.Gen.KernelIdeal.Frame

/-!
  The kernel's run with its result named.

  At the compiled mesh, from any memory with zero counters, every weakly fair execution of the program on the
  TensorCores terminates and nothing faults; in every final state the result buffer holds what the last region's
  write-backs leave (the last boundary's contents read at the result's reference), and each of the eleven argument
  arrays holds what it held at launch.
-/

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding
-- plain definitions in a metavariable's type
set_option backward.isDefEq.respectTransparency.types false in
/-- The run, at any `F`: it terminates without a fault; the result buffer ends at the last boundary's contents
    (every unscoped buffer is read against the final state, the result's among them), and each argument buffer
    ends as launched (the fold of boundary contents walks back to the launch memory at an argument). -/
theorem run_result : θ_run defs (onTc (τ := τ) (main (F := F))) ⟨m, fun _ => 0, ρ⟩ (fun r => ∀ c : Dev nD,
      r.2.mem ((c.tc : Thread nD τ).loc main_v11) = Gen.W8 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v11 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.KRun

end
-- ==== Proof.AttnBody.lean ====
/-
  The body of the fused attention kernel, written once head by head.

  A grid point holds a block of 256 query rows (all 1024 columns) and the whole 2048-row key and value projections.
  For each of the sixteen heads it slices the head's 64 columns out of the query block and out of the keys, takes the
  256 × 2048 matrix of inner products scaled by 1/8, turns each row into probabilities (subtract the row's maximum,
  exponentiate, divide by the row's sum), scales them by 1/16 and adds them to a running matrix that starts at zero.
  The running matrix then meets the value projection (one 256 × 2048 by 2048 × 1024 product), and that product meets
  the output weights (contracted along their columns) and the output bias.

  `headProbs` is one head's probabilities from its two slices, `step` one accumulation, `tail` the two products and
  the bias, and `body` their composition over the sixteen column offsets 0, 64, …, 960. The block the kernel leaves
  in its output window is `body` of the input blocks: the sixteen unrolled copies in the printed program are these
  terms, so the identification is by unfolding definitions.
-/
import proofs.«136627_j74646531605063_2_alg».proof.Proof.Gen.KernelIdeal.Frame

noncomputable section

namespace Cert.KernelIdeal.AttnBody

open Cert.KernelIdeal Cert.KernelIdeal.Gen Idealize.ShloMosaic Idealize.SL.Sem

variable {F : FTy → Type} [FloatOps F]

/-- One head's probabilities: the scaled scores of its query slice against its key slice, each row a softmax. -/
def headProbs (q : FVec F S256x64 .bf16) (k : FVec F S2048x64 .bf16) : FVec F S256x2048 .f32 :=
  have s : FVec F S256x2048 .f32 :=
    mulf (matmul dot_S256x64_S2048x64_S256x2048_1_1_0_0_n_n none q k (constant S256x2048 .f32 0x00000000#32))
      (broadcast S256x2048 (Scalar.ofBits .f32 0x3E000000#32))
  have e : FVec F S256x2048 .f32 :=
    exp (subf s (broadcastTo S256x2048 (shapeCast S256x1
      (multiReduction .maximumf [1] S256 s 0xFF800000#32 reduces_S256x2048_S256 (.inl rfl) rfl) shapeCasts_S256_S256x1)
      broadcasts_S256x1_S256x2048))
  divf e (broadcastTo S256x2048 (shapeCast S256x1
    (multiReduction .add [1] S256 e 0x00000000#32 reduces_S256x2048_S256 (.inl rfl) rfl) shapeCasts_S256_S256x1)
    broadcasts_S256x1_S256x2048)

/-- The head whose columns start at `off`: its probabilities from the query block and the keys. -/
def headAt (v1 : FVec F S256x1024 .bf16) (v3 : FVec F S2048x1024 .bf16) (off : Nat)
    (hq : S256x1024.Slices ![0, off] S256x64) (hk : S2048x1024.Slices ![0, off] S2048x64) : FVec F S256x2048 .f32 :=
  headProbs (extractStridedSlice S256x64 ![0, off] v1 hq) (extractStridedSlice S2048x64 ![0, off] v3 hk)

/-- One accumulation: the running matrix plus a head's probabilities scaled by 1/16. -/
def step (acc p : FVec F S256x2048 .f32) : FVec F S256x2048 .f32 :=
  addf acc (mulf p (broadcast S256x2048 (Scalar.ofBits .f32 0x3D800000#32)))

/-- The averaged probabilities meet the values, then the output weights and bias. -/
def tail (avg : FVec F S256x2048 .f32) (v5 : FVec F S2048x1024 .bf16) (w : Vec F S1024x1024 .bf16) (b : Vec F S1x1024 .f32) :
    FVec F S256x1024 .f32 :=
  addf
    (matmul dot_S256x1024_S1024x1024_S256x1024_1_1_0_0_n_n none
      (truncf .bf16 (matmul dot_S256x2048_S2048x1024_S256x1024_1_0_0_1_n_n none (truncf .bf16 avg bitsLt_bf16_f32) v5
        (constant S256x1024 .f32 0x00000000#32)) bitsLt_bf16_f32)
      (shapeCast S1024x1024 w shapeCasts_S1024x1024_S1024x1024) (constant S256x1024 .f32 0x00000000#32))
    (broadcastTo S256x1024 (shapeCast S1x1024 b shapeCasts_S1x1024_S1x1024) broadcasts_S1x1024_S256x1024)

/-- The sixteen heads accumulated in order from the zero matrix. -/
def avgProbs (v1 : FVec F S256x1024 .bf16) (v3 : FVec F S2048x1024 .bf16) : FVec F S256x2048 .f32 :=
  (step (step (step (step (step (step (step (step (step (step (step (step (step (step (step (step (broadcast S256x2048 (Scalar.ofBits .f32 0x00000000#32)) (headAt v1 v3 0 slices_S256x1024_o0_0_S256x64 slices_S2048x1024_o0_0_S2048x64)) (headAt v1 v3 64 slices_S256x1024_o0_64_S256x64 slices_S2048x1024_o0_64_S2048x64)) (headAt v1 v3 128 slices_S256x1024_o0_128_S256x64 slices_S2048x1024_o0_128_S2048x64)) (headAt v1 v3 192 slices_S256x1024_o0_192_S256x64 slices_S2048x1024_o0_192_S2048x64)) (headAt v1 v3 256 slices_S256x1024_o0_256_S256x64 slices_S2048x1024_o0_256_S2048x64)) (headAt v1 v3 320 slices_S256x1024_o0_320_S256x64 slices_S2048x1024_o0_320_S2048x64)) (headAt v1 v3 384 slices_S256x1024_o0_384_S256x64 slices_S2048x1024_o0_384_S2048x64)) (headAt v1 v3 448 slices_S256x1024_o0_448_S256x64 slices_S2048x1024_o0_448_S2048x64)) (headAt v1 v3 512 slices_S256x1024_o0_512_S256x64 slices_S2048x1024_o0_512_S2048x64)) (headAt v1 v3 576 slices_S256x1024_o0_576_S256x64 slices_S2048x1024_o0_576_S2048x64)) (headAt v1 v3 640 slices_S256x1024_o0_640_S256x64 slices_S2048x1024_o0_640_S2048x64)) (headAt v1 v3 704 slices_S256x1024_o0_704_S256x64 slices_S2048x1024_o0_704_S2048x64)) (headAt v1 v3 768 slices_S256x1024_o0_768_S256x64 slices_S2048x1024_o0_768_S2048x64)) (headAt v1 v3 832 slices_S256x1024_o0_832_S256x64 slices_S2048x1024_o0_832_S2048x64)) (headAt v1 v3 896 slices_S256x1024_o0_896_S256x64 slices_S2048x1024_o0_896_S2048x64)) (headAt v1 v3 960 slices_S256x1024_o0_960_S256x64 slices_S2048x1024_o0_960_S2048x64))

/-- The whole body, from the input windows' blocks. -/
def body (x0 : Vec F S256x1024 .bf16) (x1 x2 : Vec F S2048x1024 .bf16) (x3 : Vec F S1024x1024 .bf16) (x4 : Vec F S1x1024 .f32) :
    FVec F S256x1024 .f32 :=
  tail (avgProbs (shapeCast S256x1024 (View.ld x0 r3_0) shapeCasts_S256x1024_S256x1024)
      (shapeCast S2048x1024 (View.ld x1 r3_1) shapeCasts_S2048x1024_S2048x1024))
    (shapeCast S2048x1024 (View.ld x2 r3_1) shapeCasts_S2048x1024_S2048x1024) (View.ld x3 r3_2) (View.ld x4 r3_3)

set_option maxRecDepth 65536 in
/-- What the printed kernel leaves in its output window is `body` of the input blocks. -/
theorem out_eq_body (x0 : Vec F S256x1024 .bf16) (x1 x2 : Vec F S2048x1024 .bf16) (x3 : Vec F S1024x1024 .bf16) (x4 : Vec F S1x1024 .f32) :
    out3_5 x0 x1 x2 x3 x4 = View.canon [⟨r3_0, body x0 x1 x2 x3 x4⟩] := rfl

end Cert.KernelIdeal.AttnBody

end
-- ==== Proof.Spec.lean ====
/-
  The mathematics of the certificate, stated once over the extended reals and free of both programs.

  Multi-head attention over the batch axis with the value projection kept full-width and the heads averaged:
  with `Q = q·Wqᵀ + bq`, `K = k·Wkᵀ + bk`, `V = v·Wvᵀ + bv` (rows 2048, columns 1024, sixteen heads of 64 columns),
  head `h`'s score of rows `i, j` is the inner product of `Q i` and `K j` over the head's 64 columns, scaled; its
  probabilities are the softmax of the scores along `j`; and the result is `(mean over heads of the probabilities · V)·Woᵀ + bo`.

  Two arrangements of that last step are stated, as the two programs compute them:
  * `avgFirst`: the probabilities are scaled by 1/16 and summed over the heads FIRST, and that one matrix meets `V`;
  * `meanLast`: each head's probabilities meet `V`, the sixteen products are summed and the sum is divided by 16.
  They agree wherever every probability and every entry of `V` is a real number, by distributivity over the two
  finite sums — which fails on the extended reals at the infinities, hence the finiteness hypotheses.
-/
import Idealize.ShloMosaic.PureOps.Ideal
import Idealize.ShloMosaic.Lib.ValueIdx

noncomputable section

namespace Cert.Attn

open Idealize.ShloMosaic

/-- A rank-2 array read by its row and column. -/
def mat {a b : Nat} (x : (⟨2, ![a, b]⟩ : Shape).Idx → EReal) (r : Fin a) (c : Fin b) : EReal := x (ValueIdx.ix2 r c)

/-- A rank-1 array read by its coordinate. -/
def vec {a : Nat} (x : (⟨1, ![a]⟩ : Shape).Idx → EReal) (c : Fin a) : EReal := x (ValueIdx.ix1 c)

/-- The float words the two programs spell, at their exact values. -/
abbrev negInf : EReal := Ideal.ofBits .f32 0xFF800000#32
abbrev zeroW : EReal := Ideal.ofBits .f32 0x00000000#32
abbrev eighthW : EReal := Ideal.ofBits .f32 0x3E000000#32
abbrev sixteenthW : EReal := Ideal.ofBits .f32 0x3D800000#32
abbrev sixtyFourW : EReal := Ideal.ofBits .f32 0x42800000#32
abbrev sixteenW : EReal := Ideal.ofBits .f32 0x41800000#32

/-- Column `64·h + d`: coordinate `d` of head `h`. -/
def hcol (h : Fin 16) (d : Fin 64) : Fin 1024 := ⟨64 * h.val + d.val, by omega⟩

/-- A linear layer `x·Wᵀ + b`: entry `(r, c)` is the inner product of row `r` of `x` with row `c` of `W`, plus `b c`. -/
def proj {n : Nat} (x : Fin n → Fin 1024 → EReal) (W : Fin 1024 → Fin 1024 → EReal) (b : Fin 1024 → EReal)
    (r : Fin n) (c : Fin 1024) : EReal :=
  (∑ k : Fin 1024, x r k * W c k) + b c

/-- Head `h`'s unscaled score of query row `i` against key row `j`. -/
def score {n : Nat} (Q : Fin n → Fin 1024 → EReal) (K : Fin 2048 → Fin 1024 → EReal) (h : Fin 16) (i : Fin n) (j : Fin 2048) : EReal :=
  ∑ d : Fin 64, Q i (hcol h d) * K j (hcol h d)

/-- The softmax of a row of scaled scores `s`, as both programs compute it: subtract the row's maximum `M`,
    exponentiate, divide by the row's sum `z + Σ` (`z` the sum's initial value, where a program has one). -/
def softmaxWith (s : Fin 2048 → EReal) (M : EReal) (z : EReal) (j : Fin 2048) : EReal :=
  Ideal.div (Ideal.exp (s j - M)) (z + ∑ j' : Fin 2048, Ideal.exp (s j' - M))

/-- The row maximum as a fold of `max` from −∞. -/
def rowMax (s : Fin 2048 → EReal) : EReal := (Finset.univ : Finset (Fin 2048)).fold max negInf s

/-! ### The first arrangement: scores scaled by the word 1/8, heads averaged before meeting `V` -/

def scaledA {n : Nat} (Q : Fin n → Fin 1024 → EReal) (K : Fin 2048 → Fin 1024 → EReal) (h : Fin 16) (i : Fin n) (j : Fin 2048) : EReal :=
  score Q K h i j * eighthW

/-- Head `h`'s probabilities (no initial value in the row sum). -/
def probA {n : Nat} (Q : Fin n → Fin 1024 → EReal) (K : Fin 2048 → Fin 1024 → EReal) (h : Fin 16) (i : Fin n) (j : Fin 2048) : EReal :=
  Ideal.div (Ideal.exp (scaledA Q K h i j - rowMax (scaledA Q K h i)))
    (∑ j' : Fin 2048, Ideal.exp (scaledA Q K h i j' - rowMax (scaledA Q K h i)))

/-- The heads' probabilities scaled by the word 1/16 and accumulated from the zero word, head 0 first. -/
def avgA {n : Nat} (Q : Fin n → Fin 1024 → EReal) (K : Fin 2048 → Fin 1024 → EReal) (i : Fin n) (j : Fin 2048) : EReal :=
  (List.finRange 16).foldl (fun acc h => acc + probA Q K h i j * sixteenthW) zeroW

/-- The first arrangement's result. -/
def avgFirst {n : Nat} (Q : Fin n → Fin 1024 → EReal) (K V : Fin 2048 → Fin 1024 → EReal)
    (Wo : Fin 1024 → Fin 1024 → EReal) (bo : Fin 1024 → EReal) (i : Fin n) (c : Fin 1024) : EReal :=
  (∑ e : Fin 1024, (∑ j : Fin 2048, avgA Q K i j * V j e) * Wo c e) + bo c

/-! ### The second arrangement: scores divided by √64, each head meets `V`, the mean taken last -/

def scaledB (Q K : Fin 2048 → Fin 1024 → EReal) (h : Fin 16) (i j : Fin 2048) : EReal :=
  Ideal.div (score Q K h i j) (Ideal.sqrt sixtyFourW)

/-- Head `h`'s probabilities: the maximum taken once more against −∞, the row sum started from the zero word. -/
def probB (Q K : Fin 2048 → Fin 1024 → EReal) (h : Fin 16) (i j : Fin 2048) : EReal :=
  Ideal.div (Ideal.exp (scaledB Q K h i j - max negInf (rowMax (scaledB Q K h i))))
    (zeroW + ∑ j' : Fin 2048, Ideal.exp (scaledB Q K h i j' - max negInf (rowMax (scaledB Q K h i))))

/-- The mean over the heads of `probabilities · V`. -/
def meanB (Q K V : Fin 2048 → Fin 1024 → EReal) (i : Fin 2048) (e : Fin 1024) : EReal :=
  Ideal.div (zeroW + ∑ h : Fin 16, ∑ j : Fin 2048, probB Q K h i j * V j e) sixteenW

/-- The second arrangement's result. -/
def meanLast (Q K V : Fin 2048 → Fin 1024 → EReal) (Wo : Fin 1024 → Fin 1024 → EReal) (bo : Fin 1024 → EReal)
    (i : Fin 2048) (c : Fin 1024) : EReal :=
  (∑ e : Fin 1024, meanB Q K V i e * Wo c e) + bo c

end Cert.Attn

end
-- ==== Proof.LibColumnCast.lean ====
/-
  A vector reshaped to a column.
-/
import Idealize.ShloMosaic.Lib.Pipeline.Value
import Idealize.ShloMosaic.Lib.ValueIdx

namespace Cert.Lib

open Idealize.ShloMosaic Idealize.ShloMosaic.ValueIdx

/-- An `[a]` array reshaped to the column `[a, 1]` reads, at `(i, u)`, the operand at `i`, whatever the unit
    coordinate `u`: both positions have the same row-major offset `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib
-- ==== Proof.LibColumnBroadcast.lean ====
/-
  A column broadcast along its rows.
-/
import Idealize.ShloMosaic.Lib.Pipeline.Value
import Idealize.ShloMosaic.Lib.ValueIdx

namespace Cert.Lib

open Idealize.ShloMosaic Idealize.ShloMosaic.ValueIdx

/-- An `[a, 1]` column broadcast to `[a, b]` reads, at `(p, c)`, the column's entry in row `p`: the unit axis
    is read at `0` whatever the column `c`, the row axis is carried over. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.AttnRead.lean ====
/-
  The fused attention body read entry by entry on the extended reals.

  Each product of the body is a sum over its one contracted coordinate: a head's scores contract the 64 columns of the two
  slices, the averaged probabilities meet the values along the 2048 rows, and the result meets the output weights along
  their 1024 columns. A row maximum is the fold of max from −∞ along the row, a row sum the sum along the row, and the
  column they are reshaped to, broadcast back along the row, reads the row's value at every column. A slice starting at
  column `off` reads the operand `off` columns further right.
-/
import proofs.«136627_j74646531605063_2_alg».proof.Proof.AttnBody
import proofs.«136627_j74646531605063_2_alg».proof.Proof.Spec
import proofs.«136627_j74646531605063_2_alg».proof.Proof.LibColumnCast
import proofs.«136627_j74646531605063_2_alg».proof.Proof.LibColumnBroadcast
import Idealize.ShloMosaic.Lib.Pipeline.Value
import Idealize.ShloMosaic.Lib.ValueIdx
import Idealize.ShloMosaic.PureOps.Ideal.Laws

noncomputable section

namespace Cert.KernelIdeal.AttnBody

open Cert.KernelIdeal Cert.KernelIdeal.Gen Idealize.ShloMosaic Idealize.ShloMosaic.ValueIdx Idealize.SL.Sem Cert.Attn Cert.Lib

/-! ### The three products -/

theorem scores_apply_lhs_0 (i : S256x2048.Idx) (q : dot_S256x64_S2048x64_S256x2048_1_1_0_0_n_n.contr.Idx) : (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide),
    dif_pos (show (0 : Fin S256x64.rank) ∈ dot_S256x64_S2048x64_S256x2048_1_1_0_0_n_n.lhsNonContracting by decide)]
  rfl
theorem scores_apply_lhs_1 (i : S256x2048.Idx) (q : dot_S256x64_S2048x64_S256x2048_1_1_0_0_n_n.contr.Idx) : (dot_S256x64_S2048x64_S256x2048_1_1_0_0_n_n.lhsIdx i q 1).val = (q ⟨0, by decide⟩).val :=
  dot_S256x64_S2048x64_S256x2048_1_1_0_0_n_n.lhsIdx_val_of_single rfl i q
theorem scores_apply_rhs_0 (i : S256x2048.Idx) (q : dot_S256x64_S2048x64_S256x2048_1_1_0_0_n_n.contr.Idx) : (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide),
    dif_pos (show (0 : Fin S2048x64.rank) ∈ dot_S256x64_S2048x64_S256x2048_1_1_0_0_n_n.rhsNonContracting by decide)]
  rfl
theorem scores_apply_rhs_1 (i : S256x2048.Idx) (q : dot_S256x64_S2048x64_S256x2048_1_1_0_0_n_n.contr.Idx) : (dot_S256x64_S2048x64_S256x2048_1_1_0_0_n_n.rhsIdx i q 1).val = (q ⟨0, by decide⟩).val :=
  dot_S256x64_S2048x64_S256x2048_1_1_0_0_n_n.rhsIdx_val_of_single rfl i q

/-- A head's unscaled scores: query row `a` against key row `b` over the head's 64 columns. -/
theorem scores_apply (l : FVec Ideal S256x64 .bf16) (r : FVec Ideal S2048x64 .bf16) (a : Fin 256) (b : Fin 2048) :
    matmul dot_S256x64_S2048x64_S256x2048_1_1_0_0_n_n none l r (constant (F := Ideal) S256x2048 .f32 0x00000000#32) (ix2 a b)
      = ∑ k : Fin 64, l (ix2 a k) * r (ix2 b k) := by
  refine (Ideal.matmul_constant_zero_apply dot_S256x64_S2048x64_S256x2048_1_1_0_0_n_n none l r (ix2 a b)).trans ?_
  rw [← Equiv.sum_comp (contrEquiv1 dot_S256x64_S2048x64_S256x2048_1_1_0_0_n_n 64 rfl rfl).symm]
  refine Finset.sum_congr rfl fun k _ => ?_
  have hk := contrEquiv1_symm_val dot_S256x64_S2048x64_S256x2048_1_1_0_0_n_n 64 rfl rfl k
  have el : dot_S256x64_S2048x64_S256x2048_1_1_0_0_n_n.lhsIdx (ix2 a b) ((contrEquiv1 dot_S256x64_S2048x64_S256x2048_1_1_0_0_n_n 64 rfl rfl).symm k) = ix2 a k :=
    funext fun x => Fin.ext (by
      match x with
      | ⟨0, _⟩ => exact scores_apply_lhs_0 _ _
      | ⟨1, _⟩ => exact (scores_apply_lhs_1 _ _).trans hk)
  have er : dot_S256x64_S2048x64_S256x2048_1_1_0_0_n_n.rhsIdx (ix2 a b) ((contrEquiv1 dot_S256x64_S2048x64_S256x2048_1_1_0_0_n_n 64 rfl rfl).symm k) = ix2 b k :=
    funext fun x => Fin.ext (by
      match x with
      | ⟨0, _⟩ => exact scores_apply_rhs_0 _ _
      | ⟨1, _⟩ => exact (scores_apply_rhs_1 _ _).trans hk)
  rw [el, er]

theorem values_apply_lhs_0 (i : S256x1024.Idx) (q : dot_S256x2048_S2048x1024_S256x1024_1_0_0_1_n_n.contr.Idx) : (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide),
    dif_pos (show (0 : Fin S256x2048.rank) ∈ dot_S256x2048_S2048x1024_S256x1024_1_0_0_1_n_n.lhsNonContracting by decide)]
  rfl
theorem values_apply_lhs_1 (i : S256x1024.Idx) (q : dot_S256x2048_S2048x1024_S256x1024_1_0_0_1_n_n.contr.Idx) : (dot_S256x2048_S2048x1024_S256x1024_1_0_0_1_n_n.lhsIdx i q 1).val = (q ⟨0, by decide⟩).val :=
  dot_S256x2048_S2048x1024_S256x1024_1_0_0_1_n_n.lhsIdx_val_of_single rfl i q
theorem values_apply_rhs_1 (i : S256x1024.Idx) (q : dot_S256x2048_S2048x1024_S256x1024_1_0_0_1_n_n.contr.Idx) : (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide),
    dif_pos (show (1 : Fin S2048x1024.rank) ∈ dot_S256x2048_S2048x1024_S256x1024_1_0_0_1_n_n.rhsNonContracting by decide)]
  rfl
theorem values_apply_rhs_0 (i : S256x1024.Idx) (q : dot_S256x2048_S2048x1024_S256x1024_1_0_0_1_n_n.contr.Idx) : (dot_S256x2048_S2048x1024_S256x1024_1_0_0_1_n_n.rhsIdx i q 0).val = (q ⟨0, by decide⟩).val :=
  dot_S256x2048_S2048x1024_S256x1024_1_0_0_1_n_n.rhsIdx_val_of_single rfl i q

/-- The averaged probabilities meet the values: row `a` against column `b` over the 2048 key rows. -/
theorem values_apply (l : FVec Ideal S256x2048 .bf16) (r : FVec Ideal S2048x1024 .bf16) (a : Fin 256) (b : Fin 1024) :
    matmul dot_S256x2048_S2048x1024_S256x1024_1_0_0_1_n_n none l r (constant (F := Ideal) S256x1024 .f32 0x00000000#32) (ix2 a b)
      = ∑ k : Fin 2048, l (ix2 a k) * r (ix2 k b) := by
  refine (Ideal.matmul_constant_zero_apply dot_S256x2048_S2048x1024_S256x1024_1_0_0_1_n_n none l r (ix2 a b)).trans ?_
  rw [← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 a b) ((contrEquiv1 dot_S256x2048_S2048x1024_S256x1024_1_0_0_1_n_n 2048 rfl rfl).symm k) = ix2 a k :=
    funext fun x => Fin.ext (by
      match x with
      | ⟨0, _⟩ => exact values_apply_lhs_0 _ _
      | ⟨1, _⟩ => exact (values_apply_lhs_1 _ _).trans hk)
  have er : dot_S256x2048_S2048x1024_S256x1024_1_0_0_1_n_n.rhsIdx (ix2 a b) ((contrEquiv1 dot_S256x2048_S2048x1024_S256x1024_1_0_0_1_n_n 2048 rfl rfl).symm k) = ix2 k b :=
    funext fun x => Fin.ext (by
      match x with
      | ⟨1, _⟩ => exact values_apply_rhs_1 _ _
      | ⟨0, _⟩ => exact (values_apply_rhs_0 _ _).trans hk)
  rw [el, er]

theorem outproj_apply_lhs_0 (i : S256x1024.Idx) (q : dot_S256x1024_S1024x1024_S256x1024_1_1_0_0_n_n.contr.Idx) : (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide),
    dif_pos (show (0 : Fin S256x1024.rank) ∈ dot_S256x1024_S1024x1024_S256x1024_1_1_0_0_n_n.lhsNonContracting by decide)]
  rfl
theorem outproj_apply_lhs_1 (i : S256x1024.Idx) (q : dot_S256x1024_S1024x1024_S256x1024_1_1_0_0_n_n.contr.Idx) : (dot_S256x1024_S1024x1024_S256x1024_1_1_0_0_n_n.lhsIdx i q 1).val = (q ⟨0, by decide⟩).val :=
  dot_S256x1024_S1024x1024_S256x1024_1_1_0_0_n_n.lhsIdx_val_of_single rfl i q
theorem outproj_apply_rhs_0 (i : S256x1024.Idx) (q : dot_S256x1024_S1024x1024_S256x1024_1_1_0_0_n_n.contr.Idx) : (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide),
    dif_pos (show (0 : Fin S1024x1024.rank) ∈ dot_S256x1024_S1024x1024_S256x1024_1_1_0_0_n_n.rhsNonContracting by decide)]
  rfl
theorem outproj_apply_rhs_1 (i : S256x1024.Idx) (q : dot_S256x1024_S1024x1024_S256x1024_1_1_0_0_n_n.contr.Idx) : (dot_S256x1024_S1024x1024_S256x1024_1_1_0_0_n_n.rhsIdx i q 1).val = (q ⟨0, by decide⟩).val :=
  dot_S256x1024_S1024x1024_S256x1024_1_1_0_0_n_n.rhsIdx_val_of_single rfl i q

/-- The output layer: row `a` against row `b` of the weights over their 1024 columns. -/
theorem outproj_apply (l : FVec Ideal S256x1024 .bf16) (r : FVec Ideal S1024x1024 .bf16) (a : Fin 256) (b : Fin 1024) :
    matmul dot_S256x1024_S1024x1024_S256x1024_1_1_0_0_n_n none l r (constant (F := Ideal) S256x1024 .f32 0x00000000#32) (ix2 a b)
      = ∑ k : Fin 1024, l (ix2 a k) * r (ix2 b k) := by
  refine (Ideal.matmul_constant_zero_apply dot_S256x1024_S1024x1024_S256x1024_1_1_0_0_n_n none l r (ix2 a b)).trans ?_
  rw [← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 a b) ((contrEquiv1 dot_S256x1024_S1024x1024_S256x1024_1_1_0_0_n_n 1024 rfl rfl).symm k) = ix2 a k :=
    funext fun x => Fin.ext (by
      match x with
      | ⟨0, _⟩ => exact outproj_apply_lhs_0 _ _
      | ⟨1, _⟩ => exact (outproj_apply_lhs_1 _ _).trans hk)
  have er : dot_S256x1024_S1024x1024_S256x1024_1_1_0_0_n_n.rhsIdx (ix2 a b) ((contrEquiv1 dot_S256x1024_S1024x1024_S256x1024_1_1_0_0_n_n 1024 rfl rfl).symm k) = ix2 b k :=
    funext fun x => Fin.ext (by
      match x with
      | ⟨0, _⟩ => exact outproj_apply_rhs_0 _ _
      | ⟨1, _⟩ => exact (outproj_apply_rhs_1 _ _).trans hk)
  rw [el, er]

/-! ### Rows: maximum, sum, and the column broadcast back -/

/-- The source index over row `p` with column `k` inserted. -/
theorem lift_row (p : Fin 256) (k : Fin 2048) : reduces_S256x2048_S256.lift (ix1 p) k = ix2 p k :=
  funext fun x => Fin.ext (by match x with | ⟨0, _⟩ => rfl | ⟨1, _⟩ => rfl)

theorem rowmax_apply (s : FVec Ideal S256x2048 .f32) (p : Fin 256) :
    multiReduction .maximumf [1] S256 s 0xFF800000#32 reduces_S256x2048_S256 (.inl rfl) rfl (ix1 p)
      = rowMax (fun j => s (ix2 p j)) := by
  refine (Ideal.multiReduction_maximumf_single s 0xFF800000#32 reduces_S256x2048_S256 (.inl rfl) rfl (ix1 p)).trans ?_
  have e : (s ∘ reduces_S256x2048_S256.lift (ix1 p)) = fun j : Fin 2048 => s (ix2 p j) :=
    funext fun j => congrArg s (lift_row p j)
  rw [e]; rfl

theorem rowsum_apply (e : FVec Ideal S256x2048 .f32) (p : Fin 256) :
    multiReduction .add [1] S256 e 0x00000000#32 reduces_S256x2048_S256 (.inl rfl) rfl (ix1 p)
      = ∑ j : Fin 2048, e (ix2 p j) := by
  refine (Ideal.multiReduction_add_single e 0x00000000#32 reduces_S256x2048_S256 (.inl rfl) rfl (ix1 p)).trans ?_
  exact Finset.sum_congr rfl fun j _ => congrArg e (lift_row p j)

/-- A per-row value reshaped to a column and broadcast along the row reads the row's value. -/
theorem keepdims_apply (v : FVec Ideal S256 .f32) (p : Fin 256) (j : Fin 2048) :
    broadcastTo S256x2048 (shapeCast S256x1 v shapeCasts_S256_S256x1) broadcasts_S256x1_S256x2048 (ix2 p j) = v (ix1 p) := by
  rw [broadcastTo_a1_ab_apply, shapeCast_a_a1_apply]

/-! ### One head -/

/-- A row's maximum broadcast back along the row. -/
def rowMaxB (S : FVec Ideal S256x2048 .f32) : FVec Ideal S256x2048 .f32 :=
  broadcastTo S256x2048 (shapeCast S256x1
    (multiReduction .maximumf [1] S256 S 0xFF800000#32 reduces_S256x2048_S256 (.inl rfl) rfl) shapeCasts_S256_S256x1)
    broadcasts_S256x1_S256x2048

/-- A row's sum broadcast back along the row. -/
def rowSumB (E : FVec Ideal S256x2048 .f32) : FVec Ideal S256x2048 .f32 :=
  broadcastTo S256x2048 (shapeCast S256x1
    (multiReduction .add [1] S256 E 0x00000000#32 reduces_S256x2048_S256 (.inl rfl) rfl) shapeCasts_S256_S256x1)
    broadcasts_S256x1_S256x2048

/-- A head's scaled scores from its two slices. -/
def scaledScores (q : FVec Ideal S256x64 .bf16) (k : FVec Ideal S2048x64 .bf16) : FVec Ideal S256x2048 .f32 :=
  mulf (matmul dot_S256x64_S2048x64_S256x2048_1_1_0_0_n_n none q k (constant (F := Ideal) S256x2048 .f32 0x00000000#32))
    (broadcast S256x2048 (Scalar.ofBits .f32 0x3E000000#32))

theorem headProbs_eq (q : FVec Ideal S256x64 .bf16) (k : FVec Ideal S2048x64 .bf16) :
    headProbs (F := Ideal) q k
      = divf (exp (subf (scaledScores q k) (rowMaxB (scaledScores q k))))
          (rowSumB (exp (subf (scaledScores q k) (rowMaxB (scaledScores q k))))) := rfl

theorem rowMaxB_apply (S : FVec Ideal S256x2048 .f32) (p : Fin 256) (j : Fin 2048) :
    rowMaxB S (ix2 p j) = rowMax fun j' => S (ix2 p j') := by
  unfold rowMaxB; rw [keepdims_apply, rowmax_apply]

theorem rowSumB_apply (E : FVec Ideal S256x2048 .f32) (p : Fin 256) (j : Fin 2048) :
    rowSumB E (ix2 p j) = ∑ j' : Fin 2048, E (ix2 p j') := by
  unfold rowSumB; rw [keepdims_apply, rowsum_apply]

/-- Each row of scores becomes probabilities: subtract the row's maximum, exponentiate, divide by the row's sum. -/
theorem softmax_apply (S : FVec Ideal S256x2048 .f32) (p : Fin 256) (j : Fin 2048) :
    divf (exp (subf S (rowMaxB S))) (rowSumB (exp (subf S (rowMaxB S)))) (ix2 p j)
      = Ideal.div (Ideal.exp (S (ix2 p j) - rowMax fun j' => S (ix2 p j')))
          (∑ j' : Fin 2048, Ideal.exp (S (ix2 p j') - rowMax fun j'' => S (ix2 p j''))) := by
  have hE : ∀ j' : Fin 2048, exp (subf S (rowMaxB S)) (ix2 p j')
      = Ideal.exp (S (ix2 p j') - rowMax fun j'' => S (ix2 p j'')) := fun j' => by
    show Ideal.exp (S (ix2 p j') - rowMaxB S (ix2 p j')) = _
    rw [rowMaxB_apply]
  show Ideal.div (exp (subf S (rowMaxB S)) (ix2 p j)) (rowSumB (exp (subf S (rowMaxB S))) (ix2 p j)) = _
  rw [rowSumB_apply]
  simp only [hE]

/-- A slice of 64 columns starting at column `off` of the query block reads the block `off` columns further right. -/
theorem qslice_apply (v : FVec Ideal S256x1024 .bf16) (off : Nat) (hq : S256x1024.Slices ![0, off] S256x64)
    (hoff : off + 64 ≤ 1024) (p : Fin 256) (d : Fin 64) :
    extractStridedSlice S256x64 ![0, off] v hq (ix2 p d) = v (ix2 p ⟨off + d.val, by omega⟩) :=
  extractStridedSlice_apply _ v hq _ _ fun a => by
    match a with
    | ⟨0, _⟩ => exact (Nat.zero_add _).symm
    | ⟨1, _⟩ => rfl

/-- The same of the keys. -/
theorem kslice_apply (v : FVec Ideal S2048x1024 .bf16) (off : Nat) (hk : S2048x1024.Slices ![0, off] S2048x64)
    (hoff : off + 64 ≤ 1024) (p : Fin 2048) (d : Fin 64) :
    extractStridedSlice S2048x64 ![0, off] v hk (ix2 p d) = v (ix2 p ⟨off + d.val, by omega⟩) :=
  extractStridedSlice_apply _ v hk _ _ fun a => by
    match a with
    | ⟨0, _⟩ => exact (Nat.zero_add _).symm
    | ⟨1, _⟩ => rfl

/-- Head `h`, whose columns start at `64·h`: its probabilities are the specification's. -/
theorem headAt_apply (v1 : FVec Ideal S256x1024 .bf16) (v3 : FVec Ideal S2048x1024 .bf16) (h : Fin 16)
    (hq : S256x1024.Slices ![0, 64 * h.val] S256x64) (hk : S2048x1024.Slices ![0, 64 * h.val] S2048x64)
    (p : Fin 256) (j : Fin 2048) :
    headAt (F := Ideal) v1 v3 (64 * h.val) hq hk (ix2 p j) = probA (mat v1) (mat v3) h p j := by
  have hh : 64 * h.val + 64 ≤ 1024 := by have := h.isLt; omega
  have hS : ∀ j' : Fin 2048,
      scaledScores (extractStridedSlice S256x64 ![0, 64 * h.val] v1 hq) (extractStridedSlice S2048x64 ![0, 64 * h.val] v3 hk) (ix2 p j')
        = scaledA (mat v1) (mat v3) h p j' := fun j' => by
    unfold scaledScores
    rw [mulf_apply, scores_apply, broadcast_apply]
    simp only [qslice_apply v1 _ hq hh, kslice_apply v3 _ hk hh]
    rfl
  unfold headAt
  rw [headProbs_eq, softmax_apply]
  simp only [hS]
  rfl

/-! ### The sixteen heads -/

theorem step_apply (acc P : FVec Ideal S256x2048 .f32) (y : S256x2048.Idx) :
    step acc P y = acc y + P y * sixteenthW := rfl

/-- The running matrix after the sixteen heads is the specification's accumulation over the heads in order. -/
theorem avgProbs_apply (v1 : FVec Ideal S256x1024 .bf16) (v3 : FVec Ideal S2048x1024 .bf16) (p : Fin 256) (j : Fin 2048) :
    avgProbs (F := Ideal) v1 v3 (ix2 p j) = avgA (mat v1) (mat v3) p j := by
  have h0 : headAt (F := Ideal) v1 v3 0 slices_S256x1024_o0_0_S256x64 slices_S2048x1024_o0_0_S2048x64 (ix2 p j)
      = probA (mat v1) (mat v3) 0 p j := headAt_apply v1 v3 0 _ _ p j
  have h1 : headAt (F := Ideal) v1 v3 64 slices_S256x1024_o0_64_S256x64 slices_S2048x1024_o0_64_S2048x64 (ix2 p j)
      = probA (mat v1) (mat v3) 1 p j := headAt_apply v1 v3 1 _ _ p j
  have h2 : headAt (F := Ideal) v1 v3 128 slices_S256x1024_o0_128_S256x64 slices_S2048x1024_o0_128_S2048x64 (ix2 p j)
      = probA (mat v1) (mat v3) 2 p j := headAt_apply v1 v3 2 _ _ p j
  have h3 : headAt (F := Ideal) v1 v3 192 slices_S256x1024_o0_192_S256x64 slices_S2048x1024_o0_192_S2048x64 (ix2 p j)
      = probA (mat v1) (mat v3) 3 p j := headAt_apply v1 v3 3 _ _ p j
  have h4 : headAt (F := Ideal) v1 v3 256 slices_S256x1024_o0_256_S256x64 slices_S2048x1024_o0_256_S2048x64 (ix2 p j)
      = probA (mat v1) (mat v3) 4 p j := headAt_apply v1 v3 4 _ _ p j
  have h5 : headAt (F := Ideal) v1 v3 320 slices_S256x1024_o0_320_S256x64 slices_S2048x1024_o0_320_S2048x64 (ix2 p j)
      = probA (mat v1) (mat v3) 5 p j := headAt_apply v1 v3 5 _ _ p j
  have h6 : headAt (F := Ideal) v1 v3 384 slices_S256x1024_o0_384_S256x64 slices_S2048x1024_o0_384_S2048x64 (ix2 p j)
      = probA (mat v1) (mat v3) 6 p j := headAt_apply v1 v3 6 _ _ p j
  have h7 : headAt (F := Ideal) v1 v3 448 slices_S256x1024_o0_448_S256x64 slices_S2048x1024_o0_448_S2048x64 (ix2 p j)
      = probA (mat v1) (mat v3) 7 p j := headAt_apply v1 v3 7 _ _ p j
  have h8 : headAt (F := Ideal) v1 v3 512 slices_S256x1024_o0_512_S256x64 slices_S2048x1024_o0_512_S2048x64 (ix2 p j)
      = probA (mat v1) (mat v3) 8 p j := headAt_apply v1 v3 8 _ _ p j
  have h9 : headAt (F := Ideal) v1 v3 576 slices_S256x1024_o0_576_S256x64 slices_S2048x1024_o0_576_S2048x64 (ix2 p j)
      = probA (mat v1) (mat v3) 9 p j := headAt_apply v1 v3 9 _ _ p j
  have h10 : headAt (F := Ideal) v1 v3 640 slices_S256x1024_o0_640_S256x64 slices_S2048x1024_o0_640_S2048x64 (ix2 p j)
      = probA (mat v1) (mat v3) 10 p j := headAt_apply v1 v3 10 _ _ p j
  have h11 : headAt (F := Ideal) v1 v3 704 slices_S256x1024_o0_704_S256x64 slices_S2048x1024_o0_704_S2048x64 (ix2 p j)
      = probA (mat v1) (mat v3) 11 p j := headAt_apply v1 v3 11 _ _ p j
  have h12 : headAt (F := Ideal) v1 v3 768 slices_S256x1024_o0_768_S256x64 slices_S2048x1024_o0_768_S2048x64 (ix2 p j)
      = probA (mat v1) (mat v3) 12 p j := headAt_apply v1 v3 12 _ _ p j
  have h13 : headAt (F := Ideal) v1 v3 832 slices_S256x1024_o0_832_S256x64 slices_S2048x1024_o0_832_S2048x64 (ix2 p j)
      = probA (mat v1) (mat v3) 13 p j := headAt_apply v1 v3 13 _ _ p j
  have h14 : headAt (F := Ideal) v1 v3 896 slices_S256x1024_o0_896_S256x64 slices_S2048x1024_o0_896_S2048x64 (ix2 p j)
      = probA (mat v1) (mat v3) 14 p j := headAt_apply v1 v3 14 _ _ p j
  have h15 : headAt (F := Ideal) v1 v3 960 slices_S256x1024_o0_960_S256x64 slices_S2048x1024_o0_960_S2048x64 (ix2 p j)
      = probA (mat v1) (mat v3) 15 p j := headAt_apply v1 v3 15 _ _ p j
  unfold avgProbs avgA
  rw [show List.finRange 16 = [0, 1, 2, 3, 4, 5, 6, 7, 8, 9, 10, 11, 12, 13, 14, 15] from by decide]
  simp only [List.foldl_cons, List.foldl_nil, step_apply, h0, h1, h2, h3, h4, h5, h6, h7, h8, h9, h10, h11, h12, h13, h14, h15]
  rfl

/-! ### The tail and the whole body -/

/-- A one-row bias broadcast down the 256 rows reads the bias at the column. -/
theorem bias_apply (b : FVec Ideal S1x1024 .f32) (p : Fin 256) (c : Fin 1024) :
    broadcastTo S256x1024 b broadcasts_S1x1024_S256x1024 (ix2 p c) = b (ix2 0 c) := by
  refine broadcastTo_apply b _ (ix2 p c) (ix2 (0 : Fin 1) c) fun ax => ?_
  match ax with
  | ⟨0, _⟩ => rfl
  | ⟨1, _⟩ => rfl

theorem tail_apply (avg : FVec Ideal S256x2048 .f32) (v5 : FVec Ideal S2048x1024 .bf16) (w : FVec Ideal S1024x1024 .bf16)
    (b : FVec Ideal S1x1024 .f32) (p : Fin 256) (c : Fin 1024) :
    tail (F := Ideal) avg v5 w b (ix2 p c)
      = (∑ e : Fin 1024, (∑ j : Fin 2048, avg (ix2 p j) * v5 (ix2 j e)) * w (ix2 c e)) + b (ix2 0 c) := by
  unfold tail
  rw [addf_apply, outproj_apply, shapeCast_self, shapeCast_self, bias_apply]
  refine congrArg (· + b (ix2 0 c)) (Finset.sum_congr rfl fun e _ => ?_)
  rw [truncf_apply, values_apply]
  rfl

/-- THE BODY, entry by entry: the specification's first arrangement of the blocks it loads. -/
theorem body_apply (x0 : Vec Ideal S256x1024 .bf16) (x1 x2 : Vec Ideal S2048x1024 .bf16) (x3 : Vec Ideal S1024x1024 .bf16)
    (x4 : Vec Ideal S1x1024 .f32) (p : Fin 256) (c : Fin 1024) :
    body (F := Ideal) x0 x1 x2 x3 x4 (ix2 p c)
      = avgFirst (mat x0) (mat x1) (mat x2) (mat x3) (fun e => x4 (ix2 0 e)) p c := by
  have hz : (![0, 0] : Fin 2 → Nat) = fun _ => 0 := by funext a; match a with | ⟨0, _⟩ => rfl | ⟨1, _⟩ => rfl
  have e0 : shapeCast S256x1024 (View.ld x0 r3_0) shapeCasts_S256x1024_S256x1024 = x0 := by
    rw [View.ld_unit_zero (S := S256x1024) hz]; exact shapeCast_self _ _
  have e1 : shapeCast S2048x1024 (View.ld x1 r3_1) shapeCasts_S2048x1024_S2048x1024 = x1 := by
    rw [View.ld_unit_zero (S := S2048x1024) hz]; exact shapeCast_self _ _
  have e2 : shapeCast S2048x1024 (View.ld x2 r3_1) shapeCasts_S2048x1024_S2048x1024 = x2 := by
    rw [View.ld_unit_zero (S := S2048x1024) hz]; exact shapeCast_self _ _
  have e3 : View.ld x3 r3_2 = x3 := View.ld_unit_zero (S := S1024x1024) hz _ _
  have e4 : View.ld x4 r3_3 = x4 := View.ld_unit_zero (S := S1x1024) hz _ _
  unfold body
  rw [e0, e1, e2, e3, e4, tail_apply]
  simp only [avgProbs_apply]
  rfl

/-- What the printed kernel leaves in its output window, entry by entry. -/
theorem out_apply (x0 : Vec Ideal S256x1024 .bf16) (x1 x2 : Vec Ideal S2048x1024 .bf16) (x3 : Vec Ideal S1024x1024 .bf16)
    (x4 : Vec Ideal S1x1024 .f32) (p : Fin 256) (c : Fin 1024) :
    out3_5 (F := Ideal) x0 x1 x2 x3 x4 (ix2 p c) = avgFirst (mat x0) (mat x1) (mat x2) (mat x3) (fun e => x4 (ix2 0 e)) p c := by
  have hz : (![0, 0] : Fin 2 → Nat) = fun _ => 0 := by funext a; match a with | ⟨0, _⟩ => rfl | ⟨1, _⟩ => rfl
  rw [out_eq_body, View.canon_unit_zero hz]
  exact body_apply x0 x1 x2 x3 x4 p c

end Cert.KernelIdeal.AttnBody

end
-- ==== Proof.AttnLaw.lean ====
/-
  The law joining the two arrangements of the specification.

  Without any finiteness: multiplying by the word 1/8 is dividing by √64 on every extended real, the maximum of −∞ and
  a row maximum is the row maximum, and a sum started from the zero word is the sum; so the two arrangements have the
  SAME probabilities. What remains is the order of the last step: (Σ over heads of p·(1/16)) · V summed over rows,
  against (Σ over heads of Σ over rows of p · V) / 16. On the reals these agree by distributivity and exchanging the
  two finite sums; on the extended reals distributivity fails at the infinities, so the step is taken where every
  probability and every entry of V is a real number — which holds when the projections are real-valued: a score is a
  finite sum of products, a row maximum of reals is real, an exponential of a real is a positive real, and a row sum of
  positive reals is a positive real, so each quotient is a real.
-/
import proofs.«136627_j74646531605063_2_alg».proof.Proof.Spec
import Idealize.ShloMosaic.PureOps.Ideal.Laws

noncomputable section

namespace Cert.Attn

open Idealize.ShloMosaic

/-! ### The words -/

theorem negInf_eq : negInf = ⊥ := by simp [negInf, Ideal.ofBits, Ideal.ieee]
theorem zeroW_eq : zeroW = 0 := by simp [zeroW, Ideal.ofBits, Ideal.ieee]
theorem eighthW_eq : eighthW = ((1 / 8 : ℝ) : EReal) := by
  simp [eighthW, Ideal.ofBits, Ideal.ieee, -EReal.coe_mul]; norm_num
theorem sixteenthW_eq : sixteenthW = ((1 / 16 : ℝ) : EReal) := by
  simp [sixteenthW, Ideal.ofBits, Ideal.ieee, -EReal.coe_mul]; norm_num
theorem sixtyFourW_eq : sixtyFourW = ((64 : ℝ) : EReal) := by
  simp [sixtyFourW, Ideal.ofBits, Ideal.ieee, -EReal.coe_mul]; norm_num
theorem sixteenW_eq : sixteenW = ((16 : ℝ) : EReal) := by
  simp [sixteenW, Ideal.ofBits, Ideal.ieee, -EReal.coe_mul]; norm_num

theorem sqrt_sixtyFour : Ideal.sqrt sixtyFourW = ((8 : ℝ) : EReal) := by
  rw [sixtyFourW_eq, Ideal.sqrt_coe, if_neg (by norm_num)]
  rw [show (64 : ℝ) = 8 ^ 2 by norm_num, Real.sqrt_sq (by norm_num)]

/-! ### The two arrangements have the same probabilities -/

theorem scaledA_eq_scaledB (Q K : Fin 2048 → Fin 1024 → EReal) : scaledA Q K = scaledB Q K := by
  funext h i j
  unfold scaledA scaledB
  rw [sqrt_sixtyFour, Ideal.div_coe (by norm_num : (8 : ℝ) ≠ 0), eighthW_eq]

theorem probA_eq_probB (Q K : Fin 2048 → Fin 1024 → EReal) : probA Q K = probB Q K := by
  funext h i j
  unfold probA probB
  rw [← scaledA_eq_scaledB, negInf_eq, max_bot_left, zeroW_eq, zero_add]

/-- Accumulating from `z` along a list is `z` plus the list's sum. -/
theorem foldl_add_eq {α : Type} (t : α → EReal) (l : List α) (z : EReal) :
    l.foldl (fun acc h => acc + t h) z = z + (l.map t).sum := by
  induction l generalizing z with
  | nil => simp
  | cons a l ih => simp only [List.foldl_cons, List.map_cons, List.sum_cons, ih, add_assoc]

/-- The running matrix after the sixteen heads is the sum over the heads. -/
theorem avgA_eq {n : Nat} (Q : Fin n → Fin 1024 → EReal) (K : Fin 2048 → Fin 1024 → EReal) (i : Fin n) (j : Fin 2048) :
    avgA Q K i j = ∑ h : Fin 16, probA Q K h i j * sixteenthW := by
  unfold avgA
  rw [foldl_add_eq, zeroW_eq, zero_add, Fin.sum_univ_def]

/-! ### Real-valuedness -/

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (s : Finset ι) (f : ι → EReal) (h : ∀ i ∈ s, IsReal (f i)) : IsReal (∑ i ∈ s, f i) := by
  classical
  revert h
  refine Finset.induction_on s (fun _ => ⟨0, by simp⟩) ?_
  intro a s ha ih h
  rw [Finset.sum_insert ha]
  exact (h a (Finset.mem_insert_self a s)).add (ih fun i hi => h i (Finset.mem_insert_of_mem hi))

/-- The coercion of a finite real sum is the sum of the coercions. -/
theorem coe_sum {ι : Type} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A maximum folded from −∞ over real numbers is −∞ on the empty set and a real number otherwise. -/
theorem fold_max_real {ι : Type} (s : Finset ι) (f : ι → EReal) (hf : ∀ i, IsReal (f i)) :
    (s.fold max ⊥ f = ⊥ ∧ s = ∅) ∨ IsReal (s.fold max ⊥ f) := by
  classical
  refine Finset.induction_on s (Or.inl ⟨Finset.fold_empty, rfl⟩) ?_
  intro a s ha ih
  right
  rw [Finset.fold_insert ha]
  obtain ⟨x, hx⟩ := hf a
  rcases ih with ⟨h0, _⟩ | ⟨r, hr⟩
  · rw [h0, hx]; exact ⟨x, max_bot_right _⟩
  · rw [hr, hx]; exact ⟨max x r, (EReal.coe_strictMono.monotone.map_max).symm⟩

theorem rowMax_real (s : Fin 2048 → EReal) (hs : ∀ j, IsReal (s j)) : IsReal (rowMax s) := by
  unfold rowMax
  rw [negInf_eq]
  rcases fold_max_real Finset.univ s hs with ⟨_, h⟩ | h
  · exact absurd h (Finset.Nonempty.ne_empty ⟨(0 : Fin 2048), Finset.mem_univ _⟩)
  · exact h

/-- A row of real scores minus a real number, exponentiated and divided by the row's sum, is real: the exponentials are
    positive reals, so the sum is a nonzero real. -/
theorem softmax_real (s : Fin 2048 → EReal) (M : EReal) (hs : ∀ j, IsReal (s j)) (hM : IsReal M) (j : Fin 2048) :
    IsReal (Ideal.div (Ideal.exp (s j - M)) (∑ j' : Fin 2048, Ideal.exp (s j' - M))) := by
  obtain ⟨m, rfl⟩ := hM
  choose r hr using hs
  have he : ∀ j' : Fin 2048, Ideal.exp (s j' - (m : EReal)) = ((Real.exp (r j' - m) : ℝ) : EReal) := fun j' => by
    rw [hr j', ← EReal.coe_sub, Ideal.exp_coe]
  simp only [he]
  rw [← coe_sum]
  have hpos : (∑ j' : Fin 2048, Real.exp (r j' - m)) ≠ 0 :=
    (Finset.sum_pos (fun j' _ => Real.exp_pos _) ⟨(0 : Fin 2048), Finset.mem_univ _⟩).ne'
  rw [Ideal.div_coe hpos, ← EReal.coe_mul]
  exact ⟨_, rfl⟩

section Reals
variable {n : Nat} (Q : Fin n → Fin 1024 → EReal) (K : Fin 2048 → Fin 1024 → EReal)
  (hQ : ∀ i k, IsReal (Q i k)) (hK : ∀ i k, IsReal (K i k))
include hQ hK

theorem score_real (h : Fin 16) (i : Fin n) (j : Fin 2048) : IsReal (score Q K h i j) :=
  IsReal.sum _ _ fun d _ => (hQ _ _).mul (hK _ _)

theorem scaledA_real (h : Fin 16) (i : Fin n) (j : Fin 2048) : IsReal (scaledA Q K h i j) :=
  (score_real Q K hQ hK h i j).mul ⟨1 / 8, eighthW_eq⟩

theorem probA_real (h : Fin 16) (i : Fin n) (j : Fin 2048) : IsReal (probA Q K h i j) := by
  unfold probA
  exact softmax_real _ _ (fun j' => scaledA_real Q K hQ hK h i j') (rowMax_real _ fun j' => scaledA_real Q K hQ hK h i j') j

end Reals

/-- A linear layer of real-valued operands is real-valued. -/
theorem proj_real {n : Nat} (x : Fin n → Fin 1024 → EReal) (W : Fin 1024 → Fin 1024 → EReal) (b : Fin 1024 → EReal)
    (hx : ∀ r k, IsReal (x r k)) (hW : ∀ c k, IsReal (W c k)) (hb : ∀ c, IsReal (b c)) (r : Fin n) (c : Fin 1024) :
    IsReal (proj x W b r c) :=
  (IsReal.sum _ _ fun k _ => (hx r k).mul (hW c k)).add (hb c)

/-! ### The last step -/

/-- On the reals: scaling by 1/16 and summing over the heads before meeting `v` is meeting `v` head by head, summing, and
    scaling — distributivity and the exchange of the two finite sums. -/
theorem real_mean_step (p : Fin 16 → Fin 2048 → ℝ) (v : Fin 2048 → ℝ) :
    ∑ j : Fin 2048, (∑ h : Fin 16, p h j * (1 / 16)) * v j = (∑ h : Fin 16, ∑ j : Fin 2048, p h j * v j) * (1 / 16) := by
  simp only [Finset.sum_mul]
  rw [Finset.sum_comm]
  exact Finset.sum_congr rfl fun h _ => Finset.sum_congr rfl fun j _ => by ring

/-- The same on the extended reals, at real-valued probabilities and values, with the programs' words. -/
theorem mean_step (p : Fin 16 → Fin 2048 → ℝ) (v : Fin 2048 → ℝ) :
    ∑ j : Fin 2048, (∑ h : Fin 16, (p h j : EReal) * sixteenthW) * (v j : EReal)
      = Ideal.div (zeroW + ∑ h : Fin 16, ∑ j : Fin 2048, (p h j : EReal) * (v j : EReal)) sixteenW := by
  rw [sixteenthW_eq, sixteenW_eq, zeroW_eq, zero_add, Ideal.div_coe (by norm_num : (16 : ℝ) ≠ 0)]
  simp only [← EReal.coe_mul, ← coe_sum]
  exact congrArg ((↑) : ℝ → EReal) (real_mean_step p v)

/-- THE LAW: at real-valued projections the two arrangements agree. -/
theorem avgFirst_eq_meanLast (Q K V : Fin 2048 → Fin 1024 → EReal) (Wo : Fin 1024 → Fin 1024 → EReal) (bo : Fin 1024 → EReal)
    (hQ : ∀ i k, IsReal (Q i k)) (hK : ∀ i k, IsReal (K i k)) (hV : ∀ i k, IsReal (V i k)) :
    avgFirst Q K V Wo bo = meanLast Q K V Wo bo := by
  funext i c
  unfold avgFirst meanLast
  refine congrArg (· + bo c) (Finset.sum_congr rfl fun e _ => congrArg (· * Wo c e) ?_)
  unfold meanB
  rw [← probA_eq_probB]
  choose pr hpr using fun h j => probA_real Q K hQ hK h i j
  choose vr hvr using hV
  simp only [avgA_eq, hpr, hvr]
  exact mean_step pr (fun j => vr j e)

/-- The first arrangement at a row depends on the queries only through that row. -/
theorem avgFirst_row {n n' : Nat} (Q : Fin n → Fin 1024 → EReal) (Q' : Fin n' → Fin 1024 → EReal)
    (K V : Fin 2048 → Fin 1024 → EReal) (Wo : Fin 1024 → Fin 1024 → EReal) (bo : Fin 1024 → EReal)
    (i : Fin n) (i' : Fin n') (h : Q i = Q' i') (c : Fin 1024) :
    avgFirst Q K V Wo bo i c = avgFirst Q' K V Wo bo i' c := by
  have hs : ∀ hh : Fin 16, scaledA Q K hh i = scaledA Q' K hh i' := fun hh => by
    funext j; simp only [scaledA, score, h]
  have hp : ∀ (hh : Fin 16) (j : Fin 2048), probA Q K hh i j = probA Q' K hh i' j := fun hh j => by
    simp only [probA, hs]
  simp only [avgFirst, avgA, hp]

end Cert.Attn

end
-- ==== Proof.AttnArray.lean ====
/-
  From blocks to the array, for the fused attention region.

  The region runs on a grid of eight points. The query array and the result array are cut into blocks of 256 rows
  (block `t` is rows `256·t … 256·t + 255`); the key and value arrays, the output weights and the one-row bias are whole
  at every point. Given what the body computes on a block entry by entry (the hypothesis `hbody`: the first arrangement
  `avgFirst` of the blocks), the result array after the run is `avgFirst` of the whole arrays, index by index:
  * `idx_facts`: where each window's block sits, decided once over the eight points;
  * `point_eq`: one point, over variables — the first arrangement at a row reads the queries through that row only
    (`avgFirst_row`), so a 256-row block of queries gives the whole array's rows;
  * `qblk_apply`, `kblk_eq`, `vblk_eq`, `wblk_eq`, `bblk_eq`: the five input blocks read off their arrays;
  * `flushed_eq`: what point `t` writes back is block `t` of the whole-array result;
  * `mem_blk`, `cover`: row `r` lies in block `r / 256`, so the eight blocks cover the array;
  * `final`, `result_eq`: the array after the run, and the result buffer at the region's exit.
-/
import proofs.«136627_j74646531605063_2_alg».proof.Proof.Gen.KernelIdeal.Frame
import proofs.«136627_j74646531605063_2_alg».proof.Proof.Spec
import proofs.«136627_j74646531605063_2_alg».proof.Proof.AttnLaw
import Idealize.ShloMosaic.Lib.Pipeline.Value
import Idealize.ShloMosaic.Lib.ValueIdx

noncomputable section

namespace Cert.KernelIdeal.AttnArray

open Cert.KernelIdeal Cert.KernelIdeal.Gen Idealize.ShloMosaic Idealize.ShloMosaic.TcCoe Idealize.SL.Sem
open Idealize.ShloMosaic.Pipeline (Dat)
open Idealize.ShloMosaic.ValueIdx Cert.Attn

/-- The printed index maps, decided once over the eight grid points: the query window and the result window sit at block
    row `t`, column block 0; the other four windows sit at block (0, 0) at every point. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The whole-array result: the first arrangement of the five arrays the region finds, index by index. -/
abbrev G (A5 A7 A9 : S2048x1024.Idx → EReal) (A3 : S1024x1024.Idx → EReal) (A10 : S1x1024.Idx → EReal) :
    S2048x1024.Idx → EReal :=
  fun y => avgFirst (mat A5) (mat A7) (mat A9) (mat A3) (fun e => A10 (ix2 0 e)) (y 0) (y 1)

/-- One point, over variables. If the query block is rows `256·t … 256·t + 255` of the query array and the other four
    blocks are their whole arrays, the body's result at entry `y` of the block is the whole-array result at the
    entry `i` that `y` sits at: the first arrangement at a row reads the queries through that row only. -/
theorem point_eq
    (hbody : ∀ (x0 : Vec Ideal S256x1024 .bf16) (x1 x2 : Vec Ideal S2048x1024 .bf16) (x3 : Vec Ideal S1024x1024 .bf16)
      (x4 : Vec Ideal S1x1024 .f32) (p : Fin 256) (c' : Fin 1024),
      Gen.out3_5 x0 x1 x2 x3 x4 (ValueIdx.ix2 p c')
        = Cert.Attn.avgFirst (Cert.Attn.mat x0) (Cert.Attn.mat x1) (Cert.Attn.mat x2) (Cert.Attn.mat x3)
            (fun e => x4 (ValueIdx.ix2 0 e)) p c')
    (A5 A7 A9 : S2048x1024.Idx → EReal) (A3 : S1024x1024.Idx → EReal) (A10 : S1x1024.Idx → EReal)
    (x0 : Vec Ideal S256x1024 .bf16) (x1 x2 : Vec Ideal S2048x1024 .bf16) (x3 : Vec Ideal S1024x1024 .bf16)
    (x4 : Vec Ideal S1x1024 .f32) (t : Nat)
    (h0 : ∀ (y : S256x1024.Idx) (k : S2048x1024.Idx), (k 0).val = 256 * t + (y 0).val → (k 1).val = (y 1).val → x0 y = A5 k)
    (h1 : x1 = A7) (h2 : x2 = A9) (h3 : x3 = A3) (h4 : x4 = A10)
    (y : S256x1024.Idx) (i : S2048x1024.Idx) (hi0 : (i 0).val = 256 * t + (y 0).val) (hi1 : (i 1).val = (y 1).val) :
    out3_5 x0 x1 x2 x3 x4 y = G A5 A7 A9 A3 A10 i := by
  subst h1 h2 h3 h4
  obtain ⟨p, q, rfl⟩ : ∃ (p : Fin 256) (q : Fin 1024), y = ix2 p q := ⟨y 0, y 1, eq_ix2 y⟩
  obtain ⟨r, s, rfl⟩ : ∃ (r : Fin 2048) (s : Fin 1024), i = ix2 r s := ⟨i 0, i 1, eq_ix2 i⟩
  have hr : r.val = 256 * t + p.val := hi0
  have hs : s = q := Fin.ext hi1
  subst hs
  rw [hbody]
  show avgFirst (mat x0) (mat x1) (mat x2) (mat x3) (fun e => x4 (ix2 0 e)) p s
    = avgFirst (mat A5) (mat x1) (mat x2) (mat x3) (fun e => x4 (ix2 0 e)) r s
  exact avgFirst_row (mat x0) (mat A5) (mat x1) (mat x2) (mat x3) (fun e => x4 (ix2 0 e)) p r
    (funext fun k => h0 (ix2 p k) (ix2 r k) hr rfl) s

section Region
variable (V : (c : Dev nD) → (b : Ref sig .tc) → Buf (Elt Ideal) ((c : Thread nD τ).loc b))

/-- The query window's block at point `t`, entry `y`, is the query array at row `256·t + y₀`, column `y₁`. -/
theorem qblk_apply (c : Dev nD) (t : Fin cfg3.N) (y : S256x1024.Idx) (k : S2048x1024.Idx)
    (hk0 : (k 0).val = 256 * t.val + (y 0).val) (hk1 : (k 1).val = (y 1).val) :
    (iblk3 V c 0 t : Vec Ideal S256x1024 .bf16) y = (V c main_v5 : S2048x1024.Idx → EReal) k := by
  obtain ⟨e0, e1, -⟩ := idx_facts t
  unfold iblk3
  rw [View.read_apply]
  show V c main_v5 _ = V c main_v5 _
  congr 1
  funext a
  apply Fin.ext
  match a with
  | ⟨0, _⟩ => show win3_0.index t (0 : Fin 2) * 256 + 1 * (y 0).val = (k 0).val; rw [e0, hk0]; omega
  | ⟨1, _⟩ => show win3_0.index t (1 : Fin 2) * 1024 + 1 * (y 1).val = (k 1).val; rw [e1, hk1]; omega

/-- The key window's block is the key array, at every point. -/
theorem kblk_eq (c : Dev nD) (t : Fin cfg3.N) :
    (iblk3 V c 1 t : Vec Ideal S2048x1024 .bf16) = (V c main_v7 : S2048x1024.Idx → EReal) := by
  obtain ⟨-, -, e0, e1, -⟩ := idx_facts t
  funext y
  unfold iblk3
  rw [View.read_apply]
  show V c main_v7 _ = V c main_v7 y
  congr 1
  funext a
  apply Fin.ext
  match a with
  | ⟨0, _⟩ => show win3_1.index t (0 : Fin 2) * 2048 + 1 * (y 0).val = (y 0).val; rw [e0]; omega
  | ⟨1, _⟩ => show win3_1.index t (1 : Fin 2) * 1024 + 1 * (y 1).val = (y 1).val; rw [e1]; omega

/-- The value window's block is the value array, at every point. -/
theorem vblk_eq (c : Dev nD) (t : Fin cfg3.N) :
    (iblk3 V c 2 t : Vec Ideal S2048x1024 .bf16) = (V c main_v9 : S2048x1024.Idx → EReal) := by
  obtain ⟨-, -, -, -, e0, e1, -⟩ := idx_facts t
  funext y
  unfold iblk3
  rw [View.read_apply]
  show V c main_v9 _ = V c main_v9 y
  congr 1
  funext a
  apply Fin.ext
  match a with
  | ⟨0, _⟩ => show win3_2.index t (0 : Fin 2) * 2048 + 1 * (y 0).val = (y 0).val; rw [e0]; omega
  | ⟨1, _⟩ => show win3_2.index t (1 : Fin 2) * 1024 + 1 * (y 1).val = (y 1).val; rw [e1]; omega

/-- The output-weight window's block is the weight array, at every point. -/
theorem wblk_eq (c : Dev nD) (t : Fin cfg3.N) :
    (iblk3 V c 3 t : Vec Ideal S1024x1024 .bf16) = (V c main_v3 : S1024x1024.Idx → EReal) := by
  obtain ⟨-, -, -, -, -, -, e0, e1, -⟩ := idx_facts t
  funext y
  unfold iblk3
  rw [View.read_apply]
  show V c main_v3 _ = V c main_v3 y
  congr 1
  funext a
  apply Fin.ext
  match a with
  | ⟨0, _⟩ => show win3_3.index t (0 : Fin 2) * 1024 + 1 * (y 0).val = (y 0).val; rw [e0]; omega
  | ⟨1, _⟩ => show win3_3.index t (1 : Fin 2) * 1024 + 1 * (y 1).val = (y 1).val; rw [e1]; omega

/-- The bias window's block is the one-row bias array, at every point. -/
theorem bblk_eq (c : Dev nD) (t : Fin cfg3.N) :
    (iblk3 V c 4 t : Vec Ideal S1x1024 .f32) = (V c main_v10 : S1x1024.Idx → EReal) := by
  obtain ⟨-, -, -, -, -, -, -, -, e0, e1, -⟩ := idx_facts t
  funext y
  unfold iblk3
  rw [View.read_apply]
  show V c main_v10 _ = V c main_v10 y
  congr 1
  funext a
  apply Fin.ext
  match a with
  | ⟨0, _⟩ => show win3_4.index t (0 : Fin 2) * 1 + 1 * (y 0).val = (y 0).val; rw [e0]; omega
  | ⟨1, _⟩ => show win3_4.index t (1 : Fin 2) * 1024 + 1 * (y 1).val = (y 1).val; rw [e1]; omega

/-- WHAT POINT `t` WRITES BACK is block `t` of the whole-array result of the arrays as the region finds them. -/
theorem flushed_eq
    (hbody : ∀ (x0 : Vec Ideal S256x1024 .bf16) (x1 x2 : Vec Ideal S2048x1024 .bf16) (x3 : Vec Ideal S1024x1024 .bf16)
      (x4 : Vec Ideal S1x1024 .f32) (p : Fin 256) (c' : Fin 1024),
      Gen.out3_5 x0 x1 x2 x3 x4 (ValueIdx.ix2 p c')
        = Cert.Attn.avgFirst (Cert.Attn.mat x0) (Cert.Attn.mat x1) (Cert.Attn.mat x2) (Cert.Attn.mat x3)
            (fun e => x4 (ValueIdx.ix2 0 e)) p c')
    (c : Dev nD) (t : Fin cfg3.N) :
    (dat3 V c).flushed 5 t
      = ((cfg3.win 5).blk t).view.read (Elt Ideal) (G (V c main_v5) (V c main_v7) (V c main_v9) (V c main_v3) (V c main_v10)) := by
  obtain ⟨-, -, -, -, -, -, -, -, -, -, e0, e1⟩ := idx_facts t
  show (cfg3.win 5).cut (grid3.coords t) ((dat3 V c).after 5 t) = _
  rw [after3_5]
  funext j
  rw [View.read_apply]
  show out3_5 (iblk3 V c 0 t) (iblk3 V c 1 t) (iblk3 V c 2 t) (iblk3 V c 3 t) (iblk3 V c 4 t) j
    = G (V c main_v5) (V c main_v7) (V c main_v9) (V c main_v3) (V c main_v10) (((cfg3.win 5).blk t).view.emb j)
  refine point_eq hbody _ _ _ _ _ _ _ _ _ _ t.val (fun y k hk0 hk1 => qblk_apply V c t y k hk0 hk1)
    (kblk_eq V c t) (vblk_eq V c t) (wblk_eq V c t) (bblk_eq V c t) j _ ?_ ?_
  · show win3_5.index t (0 : Fin 2) * 256 + 1 * (j 0).val = 256 * t.val + (j 0).val
    rw [e0]; omega
  · show win3_5.index t (1 : Fin 2) * 1024 + 1 * (j 1).val = (j 1).val
    rw [e1]; omega

/-- An index of the result array is in point `t`'s block iff each coordinate is in the block's range on its axis. -/
theorem mem_blk (t : Fin cfg3.N) (i : S2048x1024.Idx) :
    i ∈ ((cfg3.win 5).blk t).view.set
      ↔ ∀ a : Fin 2, win3_5.index t a * S256x1024.size a ≤ (i a).val
          ∧ (i a).val < win3_5.index t a * S256x1024.size a + S256x1024.size a := by
  show i ∈ ((View.whole main_v11).slice (win3_5.rect t)).set ↔ _
  rw [View.set_slice_whole, Rect.mem_set_unit]
  exact Iff.rfl

/-- The eight blocks cover the result array: row `r` lies in block `r / 256`. -/
theorem cover (i : S2048x1024.Idx) :
    ∃ t : Fin cfg3.N, (cfg3.win 5).flush t = true ∧ i ∈ ((cfg3.win 5).blk t).view.set := by
  have hi0 : (i 0).val < 2048 := (i 0).isLt
  have hi1 : (i 1).val < 1024 := (i 1).isLt
  have hN : cfg3.N = 8 := N_3
  let t : Fin cfg3.N := ⟨(i 0).val / 256, by rw [hN]; omega⟩
  obtain ⟨-, -, -, -, -, -, -, -, -, -, e0, e1⟩ := idx_facts t
  have ht : t.val = (i 0).val / 256 := rfl
  refine ⟨t, flush3_5 t, ?_⟩
  rw [mem_blk]
  intro a
  match a with
  | ⟨0, _⟩ =>
    show win3_5.index t (0 : Fin 2) * 256 ≤ (i 0).val ∧ (i 0).val < win3_5.index t (0 : Fin 2) * 256 + 256
    rw [e0, ht]; omega
  | ⟨1, _⟩ =>
    show win3_5.index t (1 : Fin 2) * 1024 ≤ (i 1).val ∧ (i 1).val < win3_5.index t (1 : Fin 2) * 1024 + 1024
    rw [e1]; omega

/-- THE ARRAY after the region's run: the whole-array result of the arrays as the region finds them. -/
theorem final
    (hbody : ∀ (x0 : Vec Ideal S256x1024 .bf16) (x1 x2 : Vec Ideal S2048x1024 .bf16) (x3 : Vec Ideal S1024x1024 .bf16)
      (x4 : Vec Ideal S1x1024 .f32) (p : Fin 256) (c' : Fin 1024),
      Gen.out3_5 x0 x1 x2 x3 x4 (ValueIdx.ix2 p c')
        = Cert.Attn.avgFirst (Cert.Attn.mat x0) (Cert.Attn.mat x1) (Cert.Attn.mat x2) (Cert.Attn.mat x3)
            (fun e => x4 (ValueIdx.ix2 0 e)) p c')
    (c : Dev nD) :
    (dat3 V c).arrAt 5 cfg3.N = G (V c main_v5) (V c main_v7) (V c main_v9) (V c main_v3) (V c main_v10) :=
  (dat3 V c).arrAt_eq_of_cover 5 (G (V c main_v5) (V c main_v7) (V c main_v9) (V c main_v3) (V c main_v10))
    (fun t _ => flushed_eq V hbody c t) cover

end Region

/-- The result buffer at the region's exit, index by index: the first arrangement of the query, key and value arrays,
    the output weights and the one-row bias as the region finds them. -/
theorem result_eq
    (hbody : ∀ (x0 : Vec Ideal S256x1024 .bf16) (x1 x2 : Vec Ideal S2048x1024 .bf16) (x3 : Vec Ideal S1024x1024 .bf16)
      (x4 : Vec Ideal S1x1024 .f32) (p : Fin 256) (c' : Fin 1024),
      Gen.out3_5 x0 x1 x2 x3 x4 (ValueIdx.ix2 p c')
        = Cert.Attn.avgFirst (Cert.Attn.mat x0) (Cert.Attn.mat x1) (Cert.Attn.mat x2) (Cert.Attn.mat x3)
            (fun e => x4 (ValueIdx.ix2 0 e)) p c')
    (m : (ℓ : Loc nD τ sig) → Buf (Elt Ideal) ℓ) (ρ : Dev nD → PrngReg) (c : Dev nD) :
    (Gen.W8 m ρ c (Proc.devRef .tc main_v11) : S2048x1024.Idx → EReal)
      = fun y => Cert.Attn.avgFirst (Cert.Attn.mat (Gen.V7 m ρ c main_v5)) (Cert.Attn.mat (Gen.V7 m ρ c main_v7))
          (Cert.Attn.mat (Gen.V7 m ρ c main_v9)) (Cert.Attn.mat (Gen.V7 m ρ c main_v3))
          (fun e => Gen.V7 m ρ c main_v10 (ValueIdx.ix2 0 e)) (y 0) (y 1) :=
  (W8_arr m ρ c 5).trans (final (V7 m ρ) hbody c)

end Cert.KernelIdeal.AttnArray

end
-- ==== Proof.Projections.lean ====
/-
  What the attention region finds on entry: the three linear projections and the host-side operands.

  Each of the first three regions is one linear layer `x·Wᵀ + b` computed in four blocks of 512 rows; its
  result array, read entry by entry, is the inner product of a row of `x` with a row of `W` plus the bias
  (`Cert.Attn.proj`).  The host operations before them are format changes (the identity on the extended
  reals) and reshapes of a bias `[1024]` to `[1, 1024]`.  The results are carried unchanged through the later
  regions and host stretches to the entry of the fourth region.
-/
import proofs.«136627_j74646531605063_2_alg».proof.Proof.Gen.KernelIdeal.Frame
import proofs.«136627_j74646531605063_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

/-! ## The linear kernel's arithmetic at one entry -/

/-- The contraction of the kernel's matmul runs over the second axis of both operands: at an output entry
    and a contraction coordinate the left operand is read at (the entry's row, the coordinate) and the right at
    (the entry's column, the coordinate).  Axis by axis: -/
theorem linear_lhs_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide),
    dif_pos (show (0 : Fin S512x1024.rank) ∈ dot_S512x1024_S1024x1024_S512x1024_1_1_0_0_n_n.lhsNonContracting by decide)]
  rfl
theorem linear_lhs_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem linear_rhs_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide),
    dif_pos (show (0 : Fin S1024x1024.rank) ∈ dot_S512x1024_S1024x1024_S512x1024_1_1_0_0_n_n.rhsNonContracting by decide)]
  rfl
theorem linear_rhs_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

theorem linear_lhsIdx (p : Fin 512) (c' : Fin 1024) (k : Fin 1024) :
    dot_S512x1024_S1024x1024_S512x1024_1_1_0_0_n_n.lhsIdx (ix2 p c')
      ((contrEquiv1 dot_S512x1024_S1024x1024_S512x1024_1_1_0_0_n_n 1024 rfl rfl).symm k) = ix2 p k := by
  have hk := contrEquiv1_symm_val dot_S512x1024_S1024x1024_S512x1024_1_1_0_0_n_n 1024 rfl rfl k
  exact funext fun a => Fin.ext (by
    match a with
    | ⟨0, _⟩ => exact linear_lhs_0 _ _
    | ⟨1, _⟩ => exact (linear_lhs_1 _ _).trans hk)

theorem linear_rhsIdx (p : Fin 512) (c' : Fin 1024) (k : Fin 1024) :
    dot_S512x1024_S1024x1024_S512x1024_1_1_0_0_n_n.rhsIdx (ix2 p c')
      ((contrEquiv1 dot_S512x1024_S1024x1024_S512x1024_1_1_0_0_n_n 1024 rfl rfl).symm k) = ix2 c' k := by
  have hk := contrEquiv1_symm_val dot_S512x1024_S1024x1024_S512x1024_1_1_0_0_n_n 1024 rfl rfl k
  exact funext fun a => Fin.ext (by
    match a with
    | ⟨0, _⟩ => exact linear_rhs_0 _ _
    | ⟨1, _⟩ => exact (linear_rhs_1 _ _).trans hk)

/-- One entry of the block the linear kernel stores: the inner product of row `p` of the input block with
    row `c` of the weights, plus the bias at `c`.  The two format changes are the identity on the extended
    reals, the casts to the same shape are the identity, the accumulator is the zero splat, and the bias's one
    row is broadcast over the 512 rows. -/
theorem linear_pay (x0 : Vec Ideal S512x1024 .f32) (x1 : Vec Ideal S1024x1024 .bf16) (x2 : Vec Ideal S1x1024 .f32)
    (p : Fin 512) (c' : Fin 1024) :
    k0_pay1 x0 x1 x2 (ix2 p c') = (∑ k : Fin 1024, x0 (ix2 p k) * x1 (ix2 c' k)) + x2 (ix2 0 c') := by
  unfold k0_pay1
  rw [shapeCast_self, shapeCast_self, truncf_apply, addf_apply, broadcastTo_1b_ab_apply]
  simp only [matmul]
  rw [Ideal.matmul_constant_zero_apply,
    ← Equiv.sum_comp (contrEquiv1 dot_S512x1024_S1024x1024_S512x1024_1_1_0_0_n_n 1024 rfl rfl).symm]
  refine congrArg (· + x2 (ix2 0 c')) (Finset.sum_congr rfl fun k _ => ?_)
  rw [linear_lhsIdx, linear_rhsIdx]
  rfl

/-! ## A linear layer's result array, block by block -/

/-- The result array of a linear layer as one function of the arrays the region finds: the input `X` (2048 rows),
    the weights `W` (one row per output column) and the bias `b` as a one-row matrix. -/
def linear (X : S2048x1024.Idx → EReal) (W : S1024x1024.Idx → EReal) (b : S1x1024.Idx → EReal) :
    S2048x1024.Idx → EReal :=
  fun i => (∑ k : Fin 1024, X (ix2 (i 0) k) * W (ix2 (i 1) k)) + b (ix2 0 (i 1))

/-- One entry of a stored block is the matching entry of `linear`, given that the loaded input block's row is
    the array's row, and that the weights and the bias are loaded whole. -/
theorem linear_block (X : S2048x1024.Idx → EReal) (W : S1024x1024.Idx → EReal) (b : S1x1024.Idx → EReal)
    (x0 : Vec Ideal S512x1024 .f32) (x1 : Vec Ideal S1024x1024 .bf16) (x2 : Vec Ideal S1x1024 .f32)
    (j : S512x1024.Idx) (i : S2048x1024.Idx)
    (h0 : ∀ k : Fin 1024, x0 (ix2 (j 0) k) = X (ix2 (i 0) k))
    (h1 : ∀ k : Fin 1024, x1 (ix2 (j 1) k) = W (ix2 (i 1) k))
    (h2 : x2 (ix2 0 (j 1)) = b (ix2 0 (i 1))) :
    k0_pay1 x0 x1 x2 j = linear X W b i := by
  refine (congrArg (k0_pay1 x0 x1 x2) (eq_ix2 j)).trans ((linear_pay x0 x1 x2 (j 0) (j 1)).trans ?_)
  unfold linear
  rw [h2]
  exact congrArg (· + b (ix2 0 (i 1))) (Finset.sum_congr rfl fun k _ => by rw [h0 k, h1 k])

variable (m : (ℓ : Loc nD τ sig) → Buf (Elt Ideal) ℓ) (ρ : Dev nD → PrngReg)

theorem hz : (![0, 0] : Fin 2 → Nat) = fun _ => 0 := funext fun a => by fin_cases a <;> rfl

/-! ## The first projection (region 0) -/

/-- The block index maps of region 0, decided over its four points: the input and the output move one block of
    512 rows per point, the weights and the bias stay at their one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `linear` of the arrays as region 0 finds them. -/
theorem flushed0_eq (c : Dev nD) (t : Fin cfg0.N) :
    (dat0 (V1 m ρ) c).flushed 3 t = ((cfg0.win 3).blk t).view.read (Elt Ideal)
      (linear (V1 m ρ c main_arg0) (V1 m ρ c main_v0) (V1 m ρ c main_v4)) := by
  show (cfg0.win 3).cut (grid0.coords t) ((dat0 (V1 m ρ) c).after 3 t) = _
  rw [after0_3]
  unfold out0_3
  rw [View.canon_unit_zero hz]
  simp only [View.ld_unit_zero (S := S512x1024) hz, View.ld_unit_zero (S := S1024x1024) hz,
    View.ld_unit_zero (S := S1x1024) hz]
  obtain ⟨e00, e01, e10, e11, e20, e21, e30, e31⟩ := idx_facts0 t
  funext j
  show k0_pay1 (iblk0 (V1 m ρ) c 0 t) (iblk0 (V1 m ρ) c 1 t) (iblk0 (V1 m ρ) c 2 t)
        ((cfg0.win 3).xinj (grid0.coords t) j)
      = linear (V1 m ρ c main_arg0) (V1 m ρ c main_v0) (V1 m ρ c main_v4) (((cfg0.win 3).blk t).view.emb j)
  refine linear_block _ _ _ _ _ _ _ _ (fun k => ?_) (fun k => ?_) ?_
  · show V1 m ρ c main_arg0 (((cfg0.win 0).blk t).view.emb (ix2 ((cfg0.win 3).xinj (grid0.coords t) j 0) k))
        = V1 m ρ c main_arg0 (ix2 ((((cfg0.win 3).blk t).view.emb j) 0) k)
    refine congrArg _ (funext fun a => Fin.ext ?_)
    match a with
    | ⟨0, _⟩ =>
      show win0_0.index t (0 : Fin 2) * 512 + 1 * (j 0).val = win0_3.index t (0 : Fin 2) * 512 + 1 * (j 0).val
      omega
    | ⟨1, _⟩ =>
      show win0_0.index t (1 : Fin 2) * 1024 + 1 * k.val = k.val
      omega
  · show V1 m ρ c main_v0 (((cfg0.win 1).blk t).view.emb (ix2 ((cfg0.win 3).xinj (grid0.coords t) j 1) k))
        = V1 m ρ c main_v0 (ix2 ((((cfg0.win 3).blk t).view.emb j) 1) k)
    refine congrArg _ (funext fun a => Fin.ext ?_)
    match a with
    | ⟨0, _⟩ =>
      show win0_1.index t (0 : Fin 2) * 1024 + 1 * (j 1).val = win0_3.index t (1 : Fin 2) * 1024 + 1 * (j 1).val
      omega
    | ⟨1, _⟩ =>
      show win0_1.index t (1 : Fin 2) * 1024 + 1 * k.val = k.val
      omega
  · show V1 m ρ c main_v4 (((cfg0.win 2).blk t).view.emb (ix2 0 ((cfg0.win 3).xinj (grid0.coords t) j 1)))
        = V1 m ρ c main_v4 (ix2 0 ((((cfg0.win 3).blk t).view.emb j) 1))
    refine congrArg _ (funext fun a => Fin.ext ?_)
    match a with
    | ⟨0, _⟩ =>
      show win0_2.index t (0 : Fin 2) * 1 + 1 * 0 = 0
      omega
    | ⟨1, _⟩ =>
      show win0_2.index t (1 : Fin 2) * 1024 + 1 * (j 1).val = win0_3.index t (1 : Fin 2) * 1024 + 1 * (j 1).val
      omega

/-- An index of the array is in point `t`'s block iff each coordinate is in the block's range on its axis. -/
theorem mem_blk0 (t : Fin cfg0.N) (i : S2048x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v5).slice (win0_3.rect t)).set ↔ _
  rw [View.set_slice_whole, Rect.mem_set_unit]
  exact Iff.rfl

/-- Row `r` of the result lies in the block of point `r / 512`. -/
theorem cover0 (i : S2048x1024.Idx) :
    ∃ t : Fin cfg0.N, (cfg0.win 3).flush t = true ∧ i ∈ ((cfg0.win 3).blk t).view.set := by
  have hi0 : (i 0).val < 2048 := (i 0).isLt
  have hi1 : (i 1).val < 1024 := (i 1).isLt
  obtain ⟨t, ht⟩ : ∃ t : Fin cfg0.N, t.val = (i 0).val / 512 :=
    ⟨⟨(i 0).val / 512, by rw [show cfg0.N = 4 from N_0]; omega⟩, rfl⟩
  obtain ⟨-, -, -, -, -, -, e30, e31⟩ := idx_facts0 t
  refine ⟨t, flush0_3 t, ?_⟩
  rw [mem_blk0]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1024 ≤ (i 1).val ∧ (i 1).val < win0_3.index t (1 : Fin 2) * 1024 + 1024
    omega

/-- The first projection's array after region 0: `linear` of the arrays the region finds. -/
theorem final0 (c : Dev nD) : (dat0 (V1 m ρ) c).arrAt 3 cfg0.N
    = linear (V1 m ρ c main_arg0) (V1 m ρ c main_v0) (V1 m ρ c main_v4) :=
  (dat0 (V1 m ρ) c).arrAt_eq_of_cover 3 _ (fun t _ => flushed0_eq m ρ c t) cover0

/-! ## The host stretches leave every buffer they do not write -/

theorem W1_of_ne (c : Dev nD) (b : Ref sig .tc) (h0 : b ≠ main_v0) (h1 : b ≠ main_v1) (h2 : b ≠ main_v2)
    (h3 : b ≠ main_v3) (h4 : b ≠ main_v4) : W1 m ρ c (Proc.devRef .tc b) = m ((c : Thread nD τ).loc b) :=
  (StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4⟩))).trans rfl

theorem W3_of_ne (c : Dev nD) (b : Ref sig .tc) (h : b ≠ main_v6) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne h))

theorem W5_of_ne (c : Dev nD) (b : Ref sig .tc) (h : b ≠ main_v8) :
    W5 m ρ c (Proc.devRef .tc b) = W4 m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne h))

theorem W7_of_ne (c : Dev nD) (b : Ref sig .tc) (h : b ≠ main_v10) :
    W7 m ρ c (Proc.devRef .tc b) = W6 m ρ c (Proc.devRef .tc b) :=
  StableHlo.after_of_forall_not_mem (b := Proc.devRef .tc b) _ _ (List.forall_iff_forall_mem.mp (by
    simp only [hostOps3, List.Forall, StableHlo.reshape_writes, Finset.mem_singleton]
    exact StableHlo.devRef_ne_of_ne h))

/-! ## The second and third projections (regions 1 and 2): the same kernel on other arrays -/

/-- The three regions run one linear kernel: their stored payloads are the same term. -/
theorem k1_pay1_eq : k1_pay1 (F := Ideal) = k0_pay1 := rfl
theorem k2_pay1_eq : k2_pay1 (F := Ideal) = k0_pay1 := rfl

/-! ## The second projection (region 1) -/

/-- The block index maps of region 1, decided over its four points: the input and the output move one block of
    512 rows per point, the weights and the bias stay at their one block. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `linear` of the arrays as region 1 finds them. -/
theorem flushed1_eq (c : Dev nD) (t : Fin cfg1.N) :
    (dat1 (V3 m ρ) c).flushed 3 t = ((cfg1.win 3).blk t).view.read (Elt Ideal)
      (linear (V3 m ρ c main_arg1) (V3 m ρ c main_v1) (V3 m ρ c main_v6)) := by
  show (cfg1.win 3).cut (grid1.coords t) ((dat1 (V3 m ρ) c).after 3 t) = _
  rw [after1_3]
  unfold out1_3
  rw [k1_pay1_eq]
  rw [View.canon_unit_zero hz]
  simp only [View.ld_unit_zero (S := S512x1024) hz, View.ld_unit_zero (S := S1024x1024) hz,
    View.ld_unit_zero (S := S1x1024) hz]
  obtain ⟨e00, e01, e10, e11, e20, e21, e30, e31⟩ := idx_facts1 t
  funext j
  show k0_pay1 (iblk1 (V3 m ρ) c 0 t) (iblk1 (V3 m ρ) c 1 t) (iblk1 (V3 m ρ) c 2 t)
        ((cfg1.win 3).xinj (grid1.coords t) j)
      = linear (V3 m ρ c main_arg1) (V3 m ρ c main_v1) (V3 m ρ c main_v6) (((cfg1.win 3).blk t).view.emb j)
  refine linear_block _ _ _ _ _ _ _ _ (fun k => ?_) (fun k => ?_) ?_
  · show V3 m ρ c main_arg1 (((cfg1.win 0).blk t).view.emb (ix2 ((cfg1.win 3).xinj (grid1.coords t) j 0) k))
        = V3 m ρ c main_arg1 (ix2 ((((cfg1.win 3).blk t).view.emb j) 0) k)
    refine congrArg _ (funext fun a => Fin.ext ?_)
    match a with
    | ⟨0, _⟩ =>
      show win1_0.index t (0 : Fin 2) * 512 + 1 * (j 0).val = win1_3.index t (0 : Fin 2) * 512 + 1 * (j 0).val
      omega
    | ⟨1, _⟩ =>
      show win1_0.index t (1 : Fin 2) * 1024 + 1 * k.val = k.val
      omega
  · show V3 m ρ c main_v1 (((cfg1.win 1).blk t).view.emb (ix2 ((cfg1.win 3).xinj (grid1.coords t) j 1) k))
        = V3 m ρ c main_v1 (ix2 ((((cfg1.win 3).blk t).view.emb j) 1) k)
    refine congrArg _ (funext fun a => Fin.ext ?_)
    match a with
    | ⟨0, _⟩ =>
      show win1_1.index t (0 : Fin 2) * 1024 + 1 * (j 1).val = win1_3.index t (1 : Fin 2) * 1024 + 1 * (j 1).val
      omega
    | ⟨1, _⟩ =>
      show win1_1.index t (1 : Fin 2) * 1024 + 1 * k.val = k.val
      omega
  · show V3 m ρ c main_v6 (((cfg1.win 2).blk t).view.emb (ix2 0 ((cfg1.win 3).xinj (grid1.coords t) j 1)))
        = V3 m ρ c main_v6 (ix2 0 ((((cfg1.win 3).blk t).view.emb j) 1))
    refine congrArg _ (funext fun a => Fin.ext ?_)
    match a with
    | ⟨0, _⟩ =>
      show win1_2.index t (0 : Fin 2) * 1 + 1 * 0 = 0
      omega
    | ⟨1, _⟩ =>
      show win1_2.index t (1 : Fin 2) * 1024 + 1 * (j 1).val = win1_3.index t (1 : Fin 2) * 1024 + 1 * (j 1).val
      omega

/-- An index of the array is in point `t`'s block iff each coordinate is in the block's range on its axis. -/
theorem mem_blk1 (t : Fin cfg1.N) (i : S2048x1024.Idx) :
    i ∈ ((cfg1.win 3).blk t).view.set ↔ ∀ a : Fin 2, win1_3.index t a * S512x1024.size a ≤ (i a).val
      ∧ (i a).val < win1_3.index t a * S512x1024.size a + S512x1024.size a := by
  show i ∈ ((View.whole main_v7).slice (win1_3.rect t)).set ↔ _
  rw [View.set_slice_whole, Rect.mem_set_unit]
  exact Iff.rfl

/-- Row `r` of the result lies in the block of point `r / 512`. -/
theorem cover1 (i : S2048x1024.Idx) :
    ∃ t : Fin cfg1.N, (cfg1.win 3).flush t = true ∧ i ∈ ((cfg1.win 3).blk t).view.set := by
  have hi0 : (i 0).val < 2048 := (i 0).isLt
  have hi1 : (i 1).val < 1024 := (i 1).isLt
  obtain ⟨t, ht⟩ : ∃ t : Fin cfg1.N, t.val = (i 0).val / 512 :=
    ⟨⟨(i 0).val / 512, by rw [show cfg1.N = 4 from N_1]; omega⟩, rfl⟩
  obtain ⟨-, -, -, -, -, -, e30, e31⟩ := idx_facts1 t
  refine ⟨t, flush1_3 t, ?_⟩
  rw [mem_blk1]
  intro a
  match a with
  | ⟨0, _⟩ =>
    show win1_3.index t (0 : Fin 2) * 512 ≤ (i 0).val ∧ (i 0).val < win1_3.index t (0 : Fin 2) * 512 + 512
    omega
  | ⟨1, _⟩ =>
    show win1_3.index t (1 : Fin 2) * 1024 ≤ (i 1).val ∧ (i 1).val < win1_3.index t (1 : Fin 2) * 1024 + 1024
    omega

/-- The second projection's array after region 1: `linear` of the arrays the region finds. -/
theorem final1 (c : Dev nD) : (dat1 (V3 m ρ) c).arrAt 3 cfg1.N
    = linear (V3 m ρ c main_arg1) (V3 m ρ c main_v1) (V3 m ρ c main_v6) :=
  (dat1 (V3 m ρ) c).arrAt_eq_of_cover 3 _ (fun t _ => flushed1_eq m ρ c t) cover1

/-! ## The third projection (region 2) -/

/-- The block index maps of region 2, decided over its four points: the input and the output move one block of
    512 rows per point, the weights and the bias stay at their one block. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of `linear` of the arrays as region 2 finds them. -/
theorem flushed2_eq (c : Dev nD) (t : Fin cfg2.N) :
    (dat2 (V5 m ρ) c).flushed 3 t = ((cfg2.win 3).blk t).view.read (Elt Ideal)
      (linear (V5 m ρ c main_arg2) (V5 m ρ c main_v2) (V5 m ρ c main_v8)) := by
  show (cfg2.win 3).cut (grid2.coords t) ((dat2 (V5 m ρ) c).after 3 t) = _
  rw [after2_3]
  unfold out2_3
  rw [k2_pay1_eq]
  rw [View.canon_unit_zero hz]
  simp only [View.ld_unit_zero (S := S512x1024) hz, View.ld_unit_zero (S := S1024x1024) hz,
    View.ld_unit_zero (S := S1x1024) hz]
  obtain ⟨e00, e01, e10, e11, e20, e21, e30, e31⟩ := idx_facts2 t
  funext j
  show k0_pay1 (iblk2 (V5 m ρ) c 0 t) (iblk2 (V5 m ρ) c 1 t) (iblk2 (V5 m ρ) c 2 t)
        ((cfg2.win 3).xinj (grid2.coords t) j)
      = linear (V5 m ρ c main_arg2) (V5 m ρ c main_v2) (V5 m ρ c main_v8) (((cfg2.win 3).blk t).view.emb j)
  refine linear_block _ _ _ _ _ _ _ _ (fun k => ?_) (fun k => ?_) ?_
  · show V5 m ρ c main_arg2 (((cfg2.win 0).blk t).view.emb (ix2 ((cfg2.win 3).xinj (grid2.coords t) j 0) k))
        = V5 m ρ c main_arg2 (ix2 ((((cfg2.win 3).blk t).view.emb j) 0) k)
    refine congrArg _ (funext fun a => Fin.ext ?_)
    match a with
    | ⟨0, _⟩ =>
      show win2_0.index t (0 : Fin 2) * 512 + 1 * (j 0).val = win2_3.index t (0 : Fin 2) * 512 + 1 * (j 0).val
      omega
    | ⟨1, _⟩ =>
      show win2_0.index t (1 : Fin 2) * 1024 + 1 * k.val = k.val
      omega
  · show V5 m ρ c main_v2 (((cfg2.win 1).blk t).view.emb (ix2 ((cfg2.win 3).xinj (grid2.coords t) j 1) k))
        = V5 m ρ c main_v2 (ix2 ((((cfg2.win 3).blk t).view.emb j) 1) k)
    refine congrArg _ (funext fun a => Fin.ext ?_)
    match a with
    | ⟨0, _⟩ =>
      show win2_1.index t (0 : Fin 2) * 1024 + 1 * (j 1).val = win2_3.index t (1 : Fin 2) * 1024 + 1 * (j 1).val
      omega
    | ⟨1, _⟩ =>
      show win2_1.index t (1 : Fin 2) * 1024 + 1 * k.val = k.val
      omega
  · show V5 m ρ c main_v8 (((cfg2.win 2).blk t).view.emb (ix2 0 ((cfg2.win 3).xinj (grid2.coords t) j 1)))
        = V5 m ρ c main_v8 (ix2 0 ((((cfg2.win 3).blk t).view.emb j) 1))
    refine congrArg _ (funext fun a => Fin.ext ?_)
    match a with
    | ⟨0, _⟩ =>
      show win2_2.index t (0 : Fin 2) * 1 + 1 * 0 = 0
      omega
    | ⟨1, _⟩ =>
      show win2_2.index t (1 : Fin 2) * 1024 + 1 * (j 1).val = win2_3.index t (1 : Fin 2) * 1024 + 1 * (j 1).val
      omega

/-- An index of the array is in point `t`'s block iff each coordinate is in the block's range on its axis. -/
theorem mem_blk2 (t : Fin cfg2.N) (i : S2048x1024.Idx) :
    i ∈ ((cfg2.win 3).blk t).view.set ↔ ∀ a : Fin 2, win2_3.index t a * S512x1024.size a ≤ (i a).val
      ∧ (i a).val < win2_3.index t a * S512x1024.size a + S512x1024.size a := by
  show i ∈ ((View.whole main_v9).slice (win2_3.rect t)).set ↔ _
  rw [View.set_slice_whole, Rect.mem_set_unit]
  exact Iff.rfl

/-- Row `r` of the result lies in the block of point `r / 512`. -/
theorem cover2 (i : S2048x1024.Idx) :
    ∃ t : Fin cfg2.N, (cfg2.win 3).flush t = true ∧ i ∈ ((cfg2.win 3).blk t).view.set := by
  have hi0 : (i 0).val < 2048 := (i 0).isLt
  have hi1 : (i 1).val < 1024 := (i 1).isLt
  obtain ⟨t, ht⟩ : ∃ t : Fin cfg2.N, t.val = (i 0).val / 512 :=
    ⟨⟨(i 0).val / 512, by rw [show cfg2.N = 4 from N_2]; omega⟩, rfl⟩
  obtain ⟨-, -, -, -, -, -, e30, e31⟩ := idx_facts2 t
  refine ⟨t, flush2_3 t, ?_⟩
  rw [mem_blk2]
  intro a
  match a with
  | ⟨0, _⟩ =>
    show win2_3.index t (0 : Fin 2) * 512 ≤ (i 0).val ∧ (i 0).val < win2_3.index t (0 : Fin 2) * 512 + 512
    omega
  | ⟨1, _⟩ =>
    show win2_3.index t (1 : Fin 2) * 1024 ≤ (i 1).val ∧ (i 1).val < win2_3.index t (1 : Fin 2) * 1024 + 1024
    omega

/-- The third projection's array after region 2: `linear` of the arrays the region finds. -/
theorem final2 (c : Dev nD) : (dat2 (V5 m ρ) c).arrAt 3 cfg2.N
    = linear (V5 m ρ c main_arg2) (V5 m ρ c main_v2) (V5 m ρ c main_v8) :=
  (dat2 (V5 m ρ) c).arrAt_eq_of_cover 3 _ (fun t _ => flushed2_eq m ρ c t) cover2

/-! ## From `linear` of what a region finds to the specification's projection -/

/-- `linear` of an input, weights and a reshaped bias is the specification's linear layer of the launch arrays. -/
theorem linear_eq_proj (X X' : S2048x1024.Idx → EReal) (W W' : S1024x1024.Idx → EReal)
    (b : S1x1024.Idx → EReal) (b' : S1024.Idx → EReal) (hX : X = X') (hW : W = W')
    (hb : ∀ c' : Fin 1024, b (ix2 0 c') = b' (ix1 c')) :
    linear X W b = fun y => Cert.Attn.proj (Cert.Attn.mat X') (Cert.Attn.mat W') (Cert.Attn.vec b') (y 0) (y 1) := by
  subst hX hW
  funext y
  show (∑ k : Fin 1024, X (ix2 (y 0) k) * W (ix2 (y 1) k)) + b (ix2 0 (y 1))
    = (∑ k : Fin 1024, X (ix2 (y 0) k) * W (ix2 (y 1) k)) + b' (ix1 (y 1))
  exact congrArg (_ + ·) (hb (y 1))

/-- A bias `[1024]` reshaped to `[1, 1024]` reads, at `(0, c)`, the bias at `c`. -/
theorem reshape_bias (x : S1024.Idx → EReal) (c' : Fin 1024) :
    shapeCast S1x1024 x shapeCasts_S1024_S1x1024 (ix2 0 c') = x (ix1 c') :=
  shapeCast_a_1a_apply x shapeCasts_S1024_S1x1024 0 c'

/-! ## What region 0 finds, and the first projection at the fourth region's entry -/

theorem V1_arg0 (c : Dev nD) : V1 m ρ c main_arg0 = m ((c : Thread nD τ).loc main_arg0) :=
  W1_of_ne m ρ c main_arg0 (by decide) (by decide) (by decide) (by decide) (by decide)

/-- The weights as region 0 finds them: the format change is the identity on the extended reals. -/
theorem V1_v0 (c : Dev nD) :
    (V1 m ρ c main_v0 : S1024x1024.Idx → EReal) = m ((c : Thread nD τ).loc main_arg3) := by
  show StableHlo.after hostOps0 (W0 m ρ c) (Proc.devRef .tc main_v0) = _
  dsimp only [hostOps0]
  after_results
  rfl

/-- The bias as region 0 finds it: the launch bias reshaped to one row. -/
theorem V1_v4 (c : Dev nD) (c' : Fin 1024) :
    (V1 m ρ c main_v4 : S1x1024.Idx → EReal) (ix2 0 c') = m ((c : Thread nD τ).loc main_arg4) (ix1 c') := by
  have e : (V1 m ρ c main_v4 : S1x1024.Idx → EReal)
      = shapeCast S1x1024 (m ((c : Thread nD τ).loc main_arg4) : S1024.Idx → EReal) shapeCasts_S1024_S1x1024 := by
    show StableHlo.after hostOps0 (W0 m ρ c) (Proc.devRef .tc main_v4) = _
    dsimp only [hostOps0]
    after_results
    rfl
  rw [e]
  exact reshape_bias _ c'

/-- THE QUERY PROJECTION at the fourth region's entry. -/
theorem proj_q (c : Dev nD) :
    (V7 m ρ c main_v5 : S2048x1024.Idx → EReal)
      = fun y => Cert.Attn.proj (Cert.Attn.mat (m ((c : Thread nD τ).loc main_arg0) : S2048x1024.Idx → EReal))
          (Cert.Attn.mat (m ((c : Thread nD τ).loc main_arg3) : S1024x1024.Idx → EReal))
          (Cert.Attn.vec (m ((c : Thread nD τ).loc main_arg4) : S1024.Idx → EReal)) (y 0) (y 1) := by
  have h : W7 m ρ c (Proc.devRef .tc main_v5) = (dat0 (V1 m ρ) c).arrAt 3 cfg0.N :=
    calc W7 m ρ c (Proc.devRef .tc main_v5)
      _ = W6 m ρ c (Proc.devRef .tc main_v5) := W7_of_ne m ρ c main_v5 (by decide)
      _ = W5 m ρ c (Proc.devRef .tc main_v5) := W6_of_ne m ρ c main_v5 (by decide)
      _ = W4 m ρ c (Proc.devRef .tc main_v5) := W5_of_ne m ρ c main_v5 (by decide)
      _ = W3 m ρ c (Proc.devRef .tc main_v5) := W4_of_ne m ρ c main_v5 (by decide)
      _ = W2 m ρ c (Proc.devRef .tc main_v5) := W3_of_ne m ρ c main_v5 (by decide)
      _ = (dat0 (V1 m ρ) c).arrAt 3 cfg0.N := W2_arr m ρ c 3
  exact h.trans ((final0 m ρ c).trans
    (linear_eq_proj _ _ _ _ _ _ (V1_arg0 m ρ c) (V1_v0 m ρ c) (V1_v4 m ρ c)))

/-! ## The later stretches: what regions 1 and 2 find, and the operands carried to the fourth region -/

/-- A buffer that neither the first host stretch nor region 0 writes holds its launch contents after region 0, -/
theorem W2_keep (c : Dev nD) (b : Ref sig .tc) (hw0 : ∀ w, Pipeline.arrRef spec0 w ≠ b)
    (h0 : b ≠ main_v0) (h1 : b ≠ main_v1) (h2 : b ≠ main_v2) (h3 : b ≠ main_v3) (h4 : b ≠ main_v4) :
    W2 m ρ c (Proc.devRef .tc b) = m ((c : Thread nD τ).loc b) :=
  (W2_of_ne m ρ c b hw0).trans (W1_of_ne m ρ c b h0 h1 h2 h3 h4)

/-- and likewise after region 1, -/
theorem W4_keep (c : Dev nD) (b : Ref sig .tc) (hw1 : ∀ w, Pipeline.arrRef spec1 w ≠ b) (h6 : b ≠ main_v6)
    (hw0 : ∀ w, Pipeline.arrRef spec0 w ≠ b)
    (h0 : b ≠ main_v0) (h1 : b ≠ main_v1) (h2 : b ≠ main_v2) (h3 : b ≠ main_v3) (h4 : b ≠ main_v4) :
    W4 m ρ c (Proc.devRef .tc b) = m ((c : Thread nD τ).loc b) :=
  (W4_of_ne m ρ c b hw1).trans ((W3_of_ne m ρ c b h6).trans (W2_keep m ρ c b hw0 h0 h1 h2 h3 h4))

/-- and after region 2. -/
theorem W6_keep (c : Dev nD) (b : Ref sig .tc) (hw2 : ∀ w, Pipeline.arrRef spec2 w ≠ b) (h8 : b ≠ main_v8)
    (hw1 : ∀ w, Pipeline.arrRef spec1 w ≠ b) (h6 : b ≠ main_v6) (hw0 : ∀ w, Pipeline.arrRef spec0 w ≠ b)
    (h0 : b ≠ main_v0) (h1 : b ≠ main_v1) (h2 : b ≠ main_v2) (h3 : b ≠ main_v3) (h4 : b ≠ main_v4) :
    W6 m ρ c (Proc.devRef .tc b) = m ((c : Thread nD τ).loc b) :=
  (W6_of_ne m ρ c b hw2).trans ((W5_of_ne m ρ c b h8).trans (W4_keep m ρ c b hw1 h6 hw0 h0 h1 h2 h3 h4))

/-- The other converted weight matrices after the first host stretch: the launch matrices (the format change is
    the identity on the extended reals). -/
theorem W1_v1 (c : Dev nD) :
    (W1 m ρ c (Proc.devRef .tc main_v1) : S1024x1024.Idx → EReal) = m ((c : Thread nD τ).loc main_arg5) := by
  show StableHlo.after hostOps0 (W0 m ρ c) (Proc.devRef .tc main_v1) = _
  dsimp only [hostOps0]
  after_results
  rfl
theorem W1_v2 (c : Dev nD) :
    (W1 m ρ c (Proc.devRef .tc main_v2) : S1024x1024.Idx → EReal) = m ((c : Thread nD τ).loc main_arg7) := by
  show StableHlo.after hostOps0 (W0 m ρ c) (Proc.devRef .tc main_v2) = _
  dsimp only [hostOps0]
  after_results
  rfl
theorem W1_v3 (c : Dev nD) :
    (W1 m ρ c (Proc.devRef .tc main_v3) : S1024x1024.Idx → EReal) = m ((c : Thread nD τ).loc main_arg9) := by
  show StableHlo.after hostOps0 (W0 m ρ c) (Proc.devRef .tc main_v3) = _
  dsimp only [hostOps0]
  after_results
  rfl

/-! ### What region 1 finds, and the key projection -/

theorem V3_arg1 (c : Dev nD) : V3 m ρ c main_arg1 = m ((c : Thread nD τ).loc main_arg1) :=
  (W3_of_ne m ρ c main_arg1 (by decide)).trans (W2_keep m ρ c main_arg1 (by decide) (by decide) (by decide) (by decide) (by decide) (by decide))

theorem V3_v1 (c : Dev nD) :
    (V3 m ρ c main_v1 : S1024x1024.Idx → EReal) = m ((c : Thread nD τ).loc main_arg5) :=
  (W3_of_ne m ρ c main_v1 (by decide)).trans ((W2_of_ne m ρ c main_v1 (by decide)).trans (W1_v1 m ρ c))

theorem V3_v6 (c : Dev nD) (c' : Fin 1024) :
    (V3 m ρ c main_v6 : S1x1024.Idx → EReal) (ix2 0 c') = m ((c : Thread nD τ).loc main_arg6) (ix1 c') := by
  have e : (V3 m ρ c main_v6 : S1x1024.Idx → EReal)
      = shapeCast S1x1024 (W2 m ρ c (Proc.devRef .tc main_arg6) : S1024.Idx → EReal) shapeCasts_S1024_S1x1024 := by
    show StableHlo.after hostOps1 (W2 m ρ c) (Proc.devRef .tc main_v6) = _
    dsimp only [hostOps1]
    after_results
    rfl
  have a : W2 m ρ c (Proc.devRef .tc main_arg6) = m ((c : Thread nD τ).loc main_arg6) :=
    W2_keep m ρ c main_arg6 (by decide) (by decide) (by decide) (by decide) (by decide) (by decide)
  rw [e]
  exact (reshape_bias _ c').trans (congrFun a (ix1 c'))

/-- THE KEY PROJECTION at the fourth region's entry. -/
theorem proj_k (c : Dev nD) :
    (V7 m ρ c main_v7 : S2048x1024.Idx → EReal)
      = fun y => Cert.Attn.proj (Cert.Attn.mat (m ((c : Thread nD τ).loc main_arg1) : S2048x1024.Idx → EReal))
          (Cert.Attn.mat (m ((c : Thread nD τ).loc main_arg5) : S1024x1024.Idx → EReal))
          (Cert.Attn.vec (m ((c : Thread nD τ).loc main_arg6) : S1024.Idx → EReal)) (y 0) (y 1) := by
  have h : W7 m ρ c (Proc.devRef .tc main_v7) = (dat1 (V3 m ρ) c).arrAt 3 cfg1.N :=
    calc W7 m ρ c (Proc.devRef .tc main_v7)
      _ = W6 m ρ c (Proc.devRef .tc main_v7) := W7_of_ne m ρ c main_v7 (by decide)
      _ = W5 m ρ c (Proc.devRef .tc main_v7) := W6_of_ne m ρ c main_v7 (by decide)
      _ = W4 m ρ c (Proc.devRef .tc main_v7) := W5_of_ne m ρ c main_v7 (by decide)
      _ = (dat1 (V3 m ρ) c).arrAt 3 cfg1.N := W4_arr m ρ c 3
  exact h.trans ((final1 m ρ c).trans
    (linear_eq_proj _ _ _ _ _ _ (V3_arg1 m ρ c) (V3_v1 m ρ c) (V3_v6 m ρ c)))

/-! ### What region 2 finds, and the value projection -/

theorem V5_arg2 (c : Dev nD) : V5 m ρ c main_arg2 = m ((c : Thread nD τ).loc main_arg2) :=
  (W5_of_ne m ρ c main_arg2 (by decide)).trans
    (W4_keep m ρ c main_arg2 (by decide) (by decide) (by decide) (by decide) (by decide) (by decide) (by decide) (by decide))

theorem V5_v2 (c : Dev nD) :
    (V5 m ρ c main_v2 : S1024x1024.Idx → EReal) = m ((c : Thread nD τ).loc main_arg7) :=
  (W5_of_ne m ρ c main_v2 (by decide)).trans ((W4_of_ne m ρ c main_v2 (by decide)).trans
    ((W3_of_ne m ρ c main_v2 (by decide)).trans ((W2_of_ne m ρ c main_v2 (by decide)).trans (W1_v2 m ρ c))))

theorem V5_v8 (c : Dev nD) (c' : Fin 1024) :
    (V5 m ρ c main_v8 : S1x1024.Idx → EReal) (ix2 0 c') = m ((c : Thread nD τ).loc main_arg8) (ix1 c') := by
  have e : (V5 m ρ c main_v8 : S1x1024.Idx → EReal)
      = shapeCast S1x1024 (W4 m ρ c (Proc.devRef .tc main_arg8) : S1024.Idx → EReal) shapeCasts_S1024_S1x1024 := by
    show StableHlo.after hostOps2 (W4 m ρ c) (Proc.devRef .tc main_v8) = _
    dsimp only [hostOps2]
    after_results
    rfl
  have a : W4 m ρ c (Proc.devRef .tc main_arg8) = m ((c : Thread nD τ).loc main_arg8) :=
    W4_keep m ρ c main_arg8 (by decide) (by decide) (by decide) (by decide) (by decide) (by decide) (by decide) (by decide)
  rw [e]
  exact (reshape_bias _ c').trans (congrFun a (ix1 c'))

/-- THE VALUE PROJECTION at the fourth region's entry. -/
theorem proj_v (c : Dev nD) :
    (V7 m ρ c main_v9 : S2048x1024.Idx → EReal)
      = fun y => Cert.Attn.proj (Cert.Attn.mat (m ((c : Thread nD τ).loc main_arg2) : S2048x1024.Idx → EReal))
          (Cert.Attn.mat (m ((c : Thread nD τ).loc main_arg7) : S1024x1024.Idx → EReal))
          (Cert.Attn.vec (m ((c : Thread nD τ).loc main_arg8) : S1024.Idx → EReal)) (y 0) (y 1) := by
  have h : W7 m ρ c (Proc.devRef .tc main_v9) = (dat2 (V5 m ρ) c).arrAt 3 cfg2.N :=
    calc W7 m ρ c (Proc.devRef .tc main_v9)
      _ = W6 m ρ c (Proc.devRef .tc main_v9) := W7_of_ne m ρ c main_v9 (by decide)
      _ = (dat2 (V5 m ρ) c).arrAt 3 cfg2.N := W6_arr m ρ c 3
  exact h.trans ((final2 m ρ c).trans
    (linear_eq_proj _ _ _ _ _ _ (V5_arg2 m ρ c) (V5_v2 m ρ c) (V5_v8 m ρ c)))

/-! ### The output layer's operands at the fourth region's entry -/

/-- THE OUTPUT WEIGHTS: the launch matrix (converted, which is the identity, and carried through three regions). -/
theorem out_weights (c : Dev nD) :
    (V7 m ρ c main_v3 : S1024x1024.Idx → EReal) = m ((c : Thread nD τ).loc main_arg9) :=
  (W7_of_ne m ρ c main_v3 (by decide)).trans ((W6_of_ne m ρ c main_v3 (by decide)).trans
    ((W5_of_ne m ρ c main_v3 (by decide)).trans ((W4_of_ne m ρ c main_v3 (by decide)).trans
      ((W3_of_ne m ρ c main_v3 (by decide)).trans ((W2_of_ne m ρ c main_v3 (by decide)).trans (W1_v3 m ρ c))))))

/-- THE OUTPUT BIAS: the launch bias reshaped to one row. -/
theorem out_bias (c : Dev nD) (c' : Fin 1024) :
    (V7 m ρ c main_v10 : S1x1024.Idx → EReal) (ix2 0 c') = m ((c : Thread nD τ).loc main_arg10) (ix1 c') := by
  have e : (V7 m ρ c main_v10 : S1x1024.Idx → EReal)
      = shapeCast S1x1024 (W6 m ρ c (Proc.devRef .tc main_arg10) : S1024.Idx → EReal) shapeCasts_S1024_S1x1024 := by
    show StableHlo.after hostOps3 (W6 m ρ c) (Proc.devRef .tc main_v10) = _
    dsimp only [hostOps3]
    after_results
    rfl
  have a : W6 m ρ c (Proc.devRef .tc main_arg10) = m ((c : Thread nD τ).loc main_arg10) :=
    W6_keep m ρ c main_arg10 (by decide) (by decide) (by decide) (by decide) (by decide) (by decide) (by decide) (by decide) (by decide) (by decide)
  rw [e]
  exact (reshape_bias _ c').trans (congrFun a (ix1 c'))

end Cert.KernelIdeal.KValue

end
-- ==== Proof.RefValue.lean ====
/-
  The reference's result is `meanLast` of the three projections.

  Read bottom-up, one stage at a time, each at an index built from literal coordinates:
  * the three input layers are `proj` of their input, weight and bias (`linear_q`, `linear_k`, `linear_v`);
  * the reshape to sixteen heads of 64 columns followed by the transpose reads column `64·h + d` (`split_q`, `split_k`),
    so the batched contraction divided by √64 is `scaledB` (`scores`);
  * the maximum over the last axis is the fold of `max` from −∞ over the row (`row_max`), the exponentials and their
    row sum from the zero word give `probB` (`exps`, `probs`);
  * the contraction with the value layer, summed over the head axis from the zero word and divided by 16, is `meanB`
    (`mean_heads`);
  * the output layer gives `meanLast` (`result_at`, `result_eq`).
  The float words stay as the words the specification names; none is evaluated.
-/
import proofs.«136627_j74646531605063_2_alg».proof.Proof.Gen.ReferenceIdeal.Read
import proofs.«136627_j74646531605063_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Attn

/-- The query layer at row `r`, column `c`: the inner product of row `r` of the input with row `c` of the
    weight, plus the bias at `c`. -/
theorem linear_q (x0 : (⟨S2048x1024, .f32⟩ : BufTy).Contents (Elt Ideal)) (x3 : (⟨S1024x1024, .f32⟩ : BufTy).Contents (Elt Ideal))
    (x4 : (⟨S1024, .f32⟩ : BufTy).Contents (Elt Ideal)) (r : Fin 2048) (c : Fin 1024) :
    val_main_v4 (F := Ideal) x0 x3 x4 (ix2 r c) = proj (mat x0) (mat x3) (vec x4) r c := by
  have el : ∀ k : Fin 1024, lidx_main_v1 (ix2 r c) k = ix2 r k := fun k =>
    funext fun a => Fin.ext (by match a with | ⟨0, _⟩ => rfl | ⟨1, _⟩ => rfl)
  have er : ∀ k : Fin 1024, idx_main_v0 (ridx_main_v1 (ix2 r c) k) = ix2 c k := fun k =>
    funext fun a => Fin.ext (by match a with | ⟨0, _⟩ => rfl | ⟨1, _⟩ => rfl)
  have eb : idx_main_v2 (idx_main_v3 (ix2 r c)) = ix1 c :=
    funext fun a => Fin.ext (by match a with | ⟨0, _⟩ => rfl)
  rw [val_main_v4_apply, val_main_v1_apply, val_main_v3_apply, val_main_v2_apply, eb]
  simp only [val_main_v0_apply, el, er, Ideal.addf_def]
  rfl

/-- The key layer at row `r`, column `c`, likewise. -/
theorem linear_k (x1 : (⟨S2048x1024, .f32⟩ : BufTy).Contents (Elt Ideal)) (x5 : (⟨S1024x1024, .f32⟩ : BufTy).Contents (Elt Ideal))
    (x6 : (⟨S1024, .f32⟩ : BufTy).Contents (Elt Ideal)) (r : Fin 2048) (c : Fin 1024) :
    val_main_v11 (F := Ideal) x1 x5 x6 (ix2 r c) = proj (mat x1) (mat x5) (vec x6) r c := by
  have el : ∀ k : Fin 1024, lidx_main_v8 (ix2 r c) k = ix2 r k := fun k =>
    funext fun a => Fin.ext (by match a with | ⟨0, _⟩ => rfl | ⟨1, _⟩ => rfl)
  have er : ∀ k : Fin 1024, idx_main_v7 (ridx_main_v8 (ix2 r c) k) = ix2 c k := fun k =>
    funext fun a => Fin.ext (by match a with | ⟨0, _⟩ => rfl | ⟨1, _⟩ => rfl)
  have eb : idx_main_v9 (idx_main_v10 (ix2 r c)) = ix1 c :=
    funext fun a => Fin.ext (by match a with | ⟨0, _⟩ => rfl)
  rw [val_main_v11_apply, val_main_v8_apply, val_main_v10_apply, val_main_v9_apply, eb]
  simp only [val_main_v7_apply, el, er, Ideal.addf_def]
  rfl

/-- The value layer at row `r`, column `c`, likewise. -/
theorem linear_v (x2 : (⟨S2048x1024, .f32⟩ : BufTy).Contents (Elt Ideal)) (x7 : (⟨S1024x1024, .f32⟩ : BufTy).Contents (Elt Ideal))
    (x8 : (⟨S1024, .f32⟩ : BufTy).Contents (Elt Ideal)) (r : Fin 2048) (c : Fin 1024) :
    val_main_v33 (F := Ideal) x2 x7 x8 (ix2 r c) = proj (mat x2) (mat x7) (vec x8) r c := by
  have el : ∀ k : Fin 1024, lidx_main_v30 (ix2 r c) k = ix2 r k := fun k =>
    funext fun a => Fin.ext (by match a with | ⟨0, _⟩ => rfl | ⟨1, _⟩ => rfl)
  have er : ∀ k : Fin 1024, idx_main_v29 (ridx_main_v30 (ix2 r c) k) = ix2 c k := fun k =>
    funext fun a => Fin.ext (by match a with | ⟨0, _⟩ => rfl | ⟨1, _⟩ => rfl)
  have eb : idx_main_v31 (idx_main_v32 (ix2 r c)) = ix1 c :=
    funext fun a => Fin.ext (by match a with | ⟨0, _⟩ => rfl)
  rw [val_main_v33_apply, val_main_v30_apply, val_main_v32_apply, val_main_v31_apply, eb]
  simp only [val_main_v29_apply, el, er, Ideal.addf_def]
  rfl

/-- Reading the head-split arrangement: entry `(h, i, d)` of the transposed reshape is entry `(i, 64·h + d)` of the
    rank-2 array, because `((i·16 + h)·64 + d)` divided by 1024 is `i` with remainder `64·h + d`. -/
theorem split_q (h : Fin 16) (i j : Fin 2048) (d : Fin 64) :
    idx_main_v5 (idx_main_v6 (lidx_main_v14 (ix3 h i j) d)) = ix2 i (hcol h d) :=
  funext fun a => Fin.ext (by
    have hh : h.val < 16 := h.isLt
    have hd : d.val < 64 := d.isLt
    match a with
    | ⟨0, _⟩ => show ((i.val * 16 + h.val) * 64 + d.val) / 1024 = i.val; omega
    | ⟨1, _⟩ => show ((i.val * 16 + h.val) * 64 + d.val) % 1024 = 64 * h.val + d.val; omega)

theorem split_k (h : Fin 16) (i j : Fin 2048) (d : Fin 64) :
    idx_main_v12 (idx_main_v13 (ridx_main_v14 (ix3 h i j) d)) = ix2 j (hcol h d) :=
  funext fun a => Fin.ext (by
    have hh : h.val < 16 := h.isLt
    have hd : d.val < 64 := d.isLt
    match a with
    | ⟨0, _⟩ => show ((j.val * 16 + h.val) * 64 + d.val) / 1024 = j.val; omega
    | ⟨1, _⟩ => show ((j.val * 16 + h.val) * 64 + d.val) % 1024 = 64 * h.val + d.val; omega)

/-- Head `h`'s scaled score of query row `i` against key row `j`. -/
theorem scores (x0 x1 : (⟨S2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (h : Fin 16) (i j : Fin 2048) :
    val_main_v17 (F := Ideal) x0 x1 x3 x4 x5 x6 (ix3 h i j)
      = scaledB (proj (mat x0) (mat x3) (vec x4)) (proj (mat x1) (mat x5) (vec x6)) h i j := by
  rw [val_main_v17_apply, val_main_v14_apply, val_main_v16_apply, val_main_v15_apply, val_main_cst_apply]
  simp only [val_main_v6_apply, val_main_v5_apply, val_main_v13_apply, val_main_v12_apply, split_q, split_k,
    linear_q, linear_k, Ideal.hostDivf_def, Ideal.hostUnary_sqrt_def, Ideal.ofBits_def]
  rfl

/-- A row of the scores array with coordinate `k` put back on the reduced (last) axis is entry `(h, i, k)`. -/
theorem lift_row (hR : S16x2048x2048.Reduces [2] S16x2048) (h : Fin 16) (i : Fin 2048) (k : Fin (S16x2048x2048.size 2)) :
    hR.lift (ix2 h i) k = ix3 h i (⟨k.val, k.isLt⟩ : Fin 2048) :=
  funext fun c => Fin.ext (by match c with | ⟨0, _⟩ => rfl | ⟨1, _⟩ => rfl | ⟨2, _⟩ => rfl)

/-- The maximum-reduce over the last axis, at row `(h, i)`: the fold of `max` from −∞ over the row of scaled scores. -/
theorem row_max (x0 x1 : (⟨S2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (h : Fin 16) (i : Fin 2048) :
    val_main_v18 (F := Ideal) x0 x1 x3 x4 x5 x6 (ix2 h i) = rowMax (scaledB (proj (mat x0) (mat x3) (vec x4)) (proj (mat x1) (mat x5) (vec x6)) h i) := by
  have hR : S16x2048x2048.Reduces [2] S16x2048 := by decide
  unfold val_main_v18
  rw [Host.reduce_eq_fold_single FloatOps.maximumf _ _ reducesTo_S16x2048x2048_S16x2048_d2 hR h_S_]
  have hf : (val_main_v17 (F := Ideal) x0 x1 x3 x4 x5 x6 ∘ hR.lift (ix2 h i))
      = fun k : Fin 2048 => scaledB (proj (mat x0) (mat x3) (vec x4)) (proj (mat x1) (mat x5) (vec x6)) h i k :=
    funext fun k => by
      show val_main_v17 (F := Ideal) x0 x1 x3 x4 x5 x6 (hR.lift (ix2 h i) k) = _
      rw [lift_row hR h i k]
      exact scores x0 x1 x3 x4 x5 x6 h i _
  exact congrArg (fun f => Finset.fold max negInf f (Finset.univ : Finset (Fin 2048))) hf

/-- The exponentials: the scaled score less the row maximum (taken once more against −∞), exponentiated. -/
theorem exps (x0 x1 : (⟨S2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (h : Fin 16) (i j : Fin 2048) :
    val_main_v24 (F := Ideal) x0 x1 x3 x4 x5 x6 (ix3 h i j)
      = Ideal.exp (scaledB (proj (mat x0) (mat x3) (vec x4)) (proj (mat x1) (mat x5) (vec x6)) h i j - max negInf (rowMax (scaledB (proj (mat x0) (mat x3) (vec x4)) (proj (mat x1) (mat x5) (vec x6)) h i))) := by
  have e22 : idx_main_v21 (idx_main_v22 (ix3 h i j)) = ix2 h i :=
    funext fun a => Fin.ext (by match a with | ⟨0, _⟩ => rfl | ⟨1, _⟩ => rfl)
  rw [val_main_v24_apply, val_main_v23_apply, val_main_v22_apply, val_main_v21_apply, e22, val_main_v20_apply,
    val_main_v19_apply, val_main_cst_1_apply, row_max, scores]
  simp only [Ideal.hostUnary_exp_def, Ideal.subf_def, Ideal.maximumf_def, Ideal.ofBits_def]

/-- Head `h`'s probabilities: the exponentials divided by their row sum, the sum started from the zero word. -/
theorem probs (x0 x1 : (⟨S2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (h : Fin 16) (i j : Fin 2048) :
    val_main_v28 (F := Ideal) x0 x1 x3 x4 x5 x6 (ix3 h i j) = probB (proj (mat x0) (mat x3) (vec x4)) (proj (mat x1) (mat x5) (vec x6)) h i j := by
  have e27 : idx_main_v26 (idx_main_v27 (ix3 h i j)) = ix2 h i :=
    funext fun a => Fin.ext (by match a with | ⟨0, _⟩ => rfl | ⟨1, _⟩ => rfl)
  have e25 : ∀ k : Fin 2048, idx_main_v25 (ix2 h i) k = ix3 h i k := fun k =>
    funext fun a => Fin.ext (by match a with | ⟨0, _⟩ => rfl | ⟨1, _⟩ => rfl | ⟨2, _⟩ => rfl)
  rw [val_main_v28_apply, val_main_v27_apply, val_main_v26_apply, e27, val_main_v25_apply, val_main_cst_2_apply, exps]
  simp only [e25, exps, Ideal.hostDivf_def, Ideal.ofBits_def]
  rfl

/-- The mean over the heads of `probabilities · V`: each head's probabilities meet the value layer, the sixteen
    products are summed from the zero word, and the sum is divided by the word 16. -/
theorem mean_heads (x0 x1 x2 : (⟨S2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (x7 : (⟨S1024x1024, .f32⟩ : BufTy).Contents (Elt Ideal))
    (x8 : (⟨S1024, .f32⟩ : BufTy).Contents (Elt Ideal)) (i : Fin 2048) (e : Fin 1024) :
    val_main_v37 (F := Ideal) x0 x1 x2 x3 x4 x5 x6 x7 x8 (ix2 i e) = meanB (proj (mat x0) (mat x3) (vec x4)) (proj (mat x1) (mat x5) (vec x6)) (proj (mat x2) (mat x7) (vec x8)) i e := by
  have e35 : ∀ h : Fin 16, idx_main_v35 (ix2 i e) h = ix3 h i e := fun h =>
    funext fun a => Fin.ext (by match a with | ⟨0, _⟩ => rfl | ⟨1, _⟩ => rfl | ⟨2, _⟩ => rfl)
  have el : ∀ (h : Fin 16) (j : Fin 2048), lidx_main_v34 (ix3 h i e) j = ix3 h i j := fun h j =>
    funext fun a => Fin.ext (by match a with | ⟨0, _⟩ => rfl | ⟨1, _⟩ => rfl | ⟨2, _⟩ => rfl)
  have er : ∀ (h : Fin 16) (j : Fin 2048), ridx_main_v34 (ix3 h i e) j = ix2 j e := fun h j =>
    funext fun a => Fin.ext (by match a with | ⟨0, _⟩ => rfl | ⟨1, _⟩ => rfl)
  rw [val_main_v37_apply, val_main_v35_apply, val_main_v36_apply, val_main_cst_3_apply, val_main_cst_4_apply]
  simp only [e35, val_main_v34_apply, el, er, probs, linear_v, Ideal.hostDivf_def, Ideal.ofBits_def]
  rfl

/-- The reference's result, entry `(i, c)`: the output layer applied to the mean over heads. -/
theorem result_at (x0 x1 x2 : (⟨S2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (x7 : (⟨S1024x1024, .f32⟩ : BufTy).Contents (Elt Ideal))
    (x8 : (⟨S1024, .f32⟩ : BufTy).Contents (Elt Ideal))
    (x9 : (⟨S1024x1024, .f32⟩ : BufTy).Contents (Elt Ideal)) (x10 : (⟨S1024, .f32⟩ : BufTy).Contents (Elt Ideal)) (i : Fin 2048) (c : Fin 1024) :
    val_main_v42 (F := Ideal) x0 x1 x2 x3 x4 x5 x6 x7 x8 x9 x10 (ix2 i c)
      = meanLast (proj (mat x0) (mat x3) (vec x4)) (proj (mat x1) (mat x5) (vec x6)) (proj (mat x2) (mat x7) (vec x8)) (mat x9) (vec x10) i c := by
  have el : ∀ k : Fin 1024, lidx_main_v39 (ix2 i c) k = ix2 i k := fun k =>
    funext fun a => Fin.ext (by match a with | ⟨0, _⟩ => rfl | ⟨1, _⟩ => rfl)
  have er : ∀ k : Fin 1024, idx_main_v38 (ridx_main_v39 (ix2 i c) k) = ix2 c k := fun k =>
    funext fun a => Fin.ext (by match a with | ⟨0, _⟩ => rfl | ⟨1, _⟩ => rfl)
  have eb : idx_main_v40 (idx_main_v41 (ix2 i c)) = ix1 c :=
    funext fun a => Fin.ext (by match a with | ⟨0, _⟩ => rfl)
  rw [val_main_v42_apply, val_main_v39_apply, val_main_v41_apply, val_main_v40_apply, eb]
  simp only [val_main_v38_apply, el, er, mean_heads, Ideal.addf_def]
  rfl

/-- The reference's result is the second arrangement (`meanLast`) of the three projections, index by index. -/
theorem result_eq (x0 x1 x2 : (⟨S2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (x7 : (⟨S1024x1024, .f32⟩ : BufTy).Contents (Elt Ideal))
    (x8 : (⟨S1024, .f32⟩ : BufTy).Contents (Elt Ideal))
    (x9 : (⟨S1024x1024, .f32⟩ : BufTy).Contents (Elt Ideal)) (x10 : (⟨S1024, .f32⟩ : BufTy).Contents (Elt Ideal)) (y : S2048x1024.Idx) :
    val_main_v42 (F := Ideal) x0 x1 x2 x3 x4 x5 x6 x7 x8 x9 x10 y
      = meanLast (proj (mat x0) (mat x3) (vec x4)) (proj (mat x1) (mat x5) (vec x6)) (proj (mat x2) (mat x7) (vec x8)) (mat x9) (vec x10) (y 0) (y 1) :=
  (congrArg (val_main_v42 (F := Ideal) x0 x1 x2 x3 x4 x5 x6 x7 x8 x9 x10) (eq_ix2 y)).trans
    (result_at x0 x1 x2 x3 x4 x5 x6 x7 x8 x9 x10 (y 0) (y 1))

end Cert.ReferenceIdeal.RefValue

end
-- ==== Proof.Finite.lean ====
import proofs.«136627_j74646531605063_2_alg».proof.Defs
import proofs.«136627_j74646531605063_2_alg».proof.Proof.Gen.Pre_finite_inputs
import Idealize.ShloMosaic.Lib.ReduceAll
import Idealize.ShloMosaic.Lib.ValueIdx

/-!
  Finiteness of the inputs.

  The precondition says, for each of the eleven float arrays `x`, that the conjunction over all entries of
  `|x| < +∞` is the bit 1, and that the conjunction of these eleven bits is again 1. On the extended reals
  `|x|` is `max x (-x)`, and `max x (-x) < ⊤` fails at both `⊤` and `⊥`; so every entry of every array is a
  real number.
-/

namespace Cert.Finite

open Idealize.ShloMosaic Cert.Pre_finite_inputs

/-- A rank-0 shape has exactly one index: a conjunction over all axes has a single result. -/
instance subsingleton_scalar_idx : Subsingleton S_.Idx := ⟨fun a b => funext fun d => d.elim0⟩

/-- The float word `0x7F800000` denotes `+∞`. -/
theorem inf_word : Ideal.ofBits .f32 0x7F800000#32 = (⊤ : EReal) := by simp [Ideal.ofBits, Ideal.ieee]

/-- One value: if the comparison `|x| < +∞` answers 1 then `x` is a real number
    (`max x (-x)` is `⊤` at both infinities). -/
theorem real_of_abs_lt_inf (x : EReal)
    (h : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  change Ideal.cmp .olt (max x (-x)) (Ideal.ofBits .f32 0x7F800000#32) = 1#1 at h
  rw [inf_word] at h
  induction x using EReal.rec with
  | bot => simp [Ideal.cmp] at h
  | top => simp [Ideal.cmp] at h
  | coe r => exact ⟨r, rfl⟩

/-- One array of any shape: if the conjunction over every entry of `|x| < +∞`, started from 1, answers 1,
    then every entry of `x` is a real number. -/
theorem real_of_all {s : Shape} {axes : List (Fin s.rank)} (hb : S_.BroadcastsInDim s (![] : Fin 0 → Fin s.rank))
    (hr : s.ReducesTo axes S_) (hu : 0 < S_.numel) (x : s.Idx → EReal)
    (h : Host.reduce IntOp.andi
          (cmpf (F := Ideal) (φ := .f32) .olt (Host.absf (F := Ideal) (φ := .f32) x)
            (broadcastInDim s ![] hb (constant (F := Ideal) S_ .f32 0x7F800000#32)))
          (constantI S_ 1 1#1) hr hu ValueIdx.ix0 = 1#1) :
    ∀ y, ∃ r : ℝ, x y = (r : EReal) := fun y =>
  real_of_abs_lt_inf (x y) (Host.reduce_andi_all _ _ hr hu ValueIdx.ix0 h y)

/-- All eleven arrays: if the precondition answers 1, every entry of every input is a real number.
    The eleven bits are conjoined left to right, so the conjunction is split from the last array back to the first. -/
theorem inputs_real [Cert.Pre_finite_inputs.Facts]
    (a0 a1 a2 : S2048x1024.Idx → EReal) (a3 : S1024x1024.Idx → EReal) (a4 : S1024.Idx → EReal)
    (a5 : S1024x1024.Idx → EReal) (a6 : S1024.Idx → EReal) (a7 : S1024x1024.Idx → EReal) (a8 : S1024.Idx → EReal)
    (a9 : S1024x1024.Idx → EReal) (a10 : S1024.Idx → EReal)
    (h : Cert.Pre_finite_inputs.fn (F := Ideal) a0 a1 a2 a3 a4 a5 a6 a7 a8 a9 a10 = (fun _ => 1#1)) :
    (∀ y, ∃ r : ℝ, a0 y = (r : EReal)) ∧ (∀ y, ∃ r : ℝ, a1 y = (r : EReal)) ∧ (∀ y, ∃ r : ℝ, a2 y = (r : EReal))
    ∧ (∀ y, ∃ r : ℝ, a3 y = (r : EReal)) ∧ (∀ y, ∃ r : ℝ, a4 y = (r : EReal)) ∧ (∀ y, ∃ r : ℝ, a5 y = (r : EReal))
    ∧ (∀ y, ∃ r : ℝ, a6 y = (r : EReal)) ∧ (∀ y, ∃ r : ℝ, a7 y = (r : EReal)) ∧ (∀ y, ∃ r : ℝ, a8 y = (r : EReal))
    ∧ (∀ y, ∃ r : ℝ, a9 y = (r : EReal)) ∧ (∀ y, ∃ r : ℝ, a10 y = (r : EReal)) := by
  have h := congrFun h ValueIdx.ix0
  dsimp only [Cert.Pre_finite_inputs.fn, fn_part1, fn_part2, fn_part3, andi] at h
  obtain ⟨h, e10⟩ := IntOp.andi_eq_one.1 h
  obtain ⟨h, e9⟩ := IntOp.andi_eq_one.1 h
  obtain ⟨h, e8⟩ := IntOp.andi_eq_one.1 h
  obtain ⟨h, e7⟩ := IntOp.andi_eq_one.1 h
  obtain ⟨h, e6⟩ := IntOp.andi_eq_one.1 h
  obtain ⟨h, e5⟩ := IntOp.andi_eq_one.1 h
  obtain ⟨h, e4⟩ := IntOp.andi_eq_one.1 h
  obtain ⟨h, e3⟩ := IntOp.andi_eq_one.1 h
  obtain ⟨h, e2⟩ := IntOp.andi_eq_one.1 h
  obtain ⟨e0, e1⟩ := IntOp.andi_eq_one.1 h
  exact ⟨real_of_all _ _ _ a0 e0, real_of_all _ _ _ a1 e1, real_of_all _ _ _ a2 e2, real_of_all _ _ _ a3 e3,
    real_of_all _ _ _ a4 e4, real_of_all _ _ _ a5 e5, real_of_all _ _ _ a6 e6, real_of_all _ _ _ a7 e7,
    real_of_all _ _ _ a8 e8, real_of_all _ _ _ a9 e9, real_of_all _ _ _ a10 e10⟩

end Cert.Finite
-- ==== Proof.Bridge.lean ====
/-
  The kernel's result is the reference's.

  The fourth region writes, row by row, the heads-averaged-first arrangement of what it finds on entry; what it finds are
  the three linear projections of the inputs (written by the first three regions), the output weights unchanged and the
  output bias as one row. The reference's result is the mean-taken-last arrangement of the same three projections. Under
  the precondition every input entry is a real number, so the projections are real-valued and the two arrangements are
  one function of the inputs.
-/
import proofs.«136627_j74646531605063_2_alg».proof.Proof.AttnRead
import proofs.«136627_j74646531605063_2_alg».proof.Proof.AttnArray
import proofs.«136627_j74646531605063_2_alg».proof.Proof.Projections
import proofs.«136627_j74646531605063_2_alg».proof.Proof.AttnLaw
import proofs.«136627_j74646531605063_2_alg».proof.Proof.RefValue
import proofs.«136627_j74646531605063_2_alg».proof.Proof.Finite

noncomputable section

namespace Cert.Bridge

open Idealize.ShloMosaic Idealize.ShloMosaic.ValueIdx Idealize.SL.Sem Cert.Attn

/-- The pure core: what the fourth region finds on entry are the three projections, the output weights and the bias;
    at real-valued inputs the projections are real-valued, so the first arrangement of them is the second. -/
theorem core (A0 A1 A2 : (⟨2, ![2048, 1024]⟩ : Shape).Idx → EReal) (A3 A5 A7 A9 : (⟨2, ![1024, 1024]⟩ : Shape).Idx → EReal)
    (A4 A6 A8 A10 : (⟨1, ![1024]⟩ : Shape).Idx → EReal)
    (Vq Vk Vv : (⟨2, ![2048, 1024]⟩ : Shape).Idx → EReal) (Vw : (⟨2, ![1024, 1024]⟩ : Shape).Idx → EReal)
    (Vb : (⟨2, ![1, 1024]⟩ : Shape).Idx → EReal)
    (hq : Vq = fun y => proj (mat A0) (mat A3) (vec A4) (y 0) (y 1))
    (hk : Vk = fun y => proj (mat A1) (mat A5) (vec A6) (y 0) (y 1))
    (hv : Vv = fun y => proj (mat A2) (mat A7) (vec A8) (y 0) (y 1))
    (hw : Vw = A9) (hb : ∀ e : Fin 1024, Vb (ix2 0 e) = A10 (ix1 e))
    (r0 : ∀ y, ∃ r : ℝ, A0 y = (r : EReal)) (r1 : ∀ y, ∃ r : ℝ, A1 y = (r : EReal)) (r2 : ∀ y, ∃ r : ℝ, A2 y = (r : EReal))
    (r3 : ∀ y, ∃ r : ℝ, A3 y = (r : EReal)) (r4 : ∀ y, ∃ r : ℝ, A4 y = (r : EReal)) (r5 : ∀ y, ∃ r : ℝ, A5 y = (r : EReal))
    (r6 : ∀ y, ∃ r : ℝ, A6 y = (r : EReal)) (r7 : ∀ y, ∃ r : ℝ, A7 y = (r : EReal)) (r8 : ∀ y, ∃ r : ℝ, A8 y = (r : EReal))
    (i : Fin 2048) (c : Fin 1024) :
    avgFirst (mat Vq) (mat Vk) (mat Vv) (mat Vw) (fun e => Vb (ix2 0 e)) i c
      = meanLast (proj (mat A0) (mat A3) (vec A4)) (proj (mat A1) (mat A5) (vec A6)) (proj (mat A2) (mat A7) (vec A8))
          (mat A9) (vec A10) i c := by
  subst hq hk hv hw
  have hbv : (fun e => Vb (ix2 0 e)) = vec A10 := funext fun e => hb e
  rw [hbv]
  have hQ : ∀ i k, IsReal (proj (mat A0) (mat A3) (vec A4) i k) :=
    fun i k => proj_real _ _ _ (fun _ _ => r0 _) (fun _ _ => r3 _) (fun _ => r4 _) i k
  have hK : ∀ i k, IsReal (proj (mat A1) (mat A5) (vec A6) i k) :=
    fun i k => proj_real _ _ _ (fun _ _ => r1 _) (fun _ _ => r5 _) (fun _ => r6 _) i k
  have hV : ∀ i k, IsReal (proj (mat A2) (mat A7) (vec A8) i k) :=
    fun i k => proj_real _ _ _ (fun _ _ => r2 _) (fun _ _ => r7 _) (fun _ => r8 _) i k
  exact congrFun (congrFun (avgFirst_eq_meanLast _ _ _ (mat Vw) (vec A10) hQ hK hV) i) c

theorem kernel_value (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.KernelIdeal.Gen.W8 m ρ c (Proc.devRef .tc Cert.KernelIdeal.main_v11)
      = Cert.ReferenceIdeal.Read.val_main_v42 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  obtain ⟨r0, r1, r2, r3, r4, r5, r6, r7, r8, r9, r10⟩ := Cert.Finite.inputs_real _ _ _ _ _ _ _ _ _ _ _ (hpre c)
  refine (Cert.KernelIdeal.AttnArray.result_eq
    (fun x0 x1 x2 x3 x4 p c' => Cert.KernelIdeal.AttnBody.out_apply x0 x1 x2 x3 x4 p c') m ρ c).trans ?_
  funext y
  rw [Cert.ReferenceIdeal.RefValue.result_eq]
  exact core _ _ _ _ _ _ _ _ _ _ _ _ _ _ _ _
    (Cert.KernelIdeal.KValue.proj_q m ρ c) (Cert.KernelIdeal.KValue.proj_k m ρ c) (Cert.KernelIdeal.KValue.proj_v m ρ c)
    (Cert.KernelIdeal.KValue.out_weights m ρ c) (Cert.KernelIdeal.KValue.out_bias m ρ c)
    r0 r1 r2 r3 r4 r5 r6 r7 r8 (y 0) (y 1)

end Cert.Bridge

end
-- ==== Proof.lean ====
/-
  Multi-head attention over the batch axis, with a full-width value projection and the heads averaged, against its
  plain reference: the claim is that the printed kernel and its idealization run and keep their arguments, that the
  idealization rewrote nothing, and that on the extended reals, from finite inputs, the idealized kernel and the idealized
  reference end with the same 2048 × 1024 result.

  Both programs form the three projections Q = q·Wqᵀ + bq, K = k·Wkᵀ + bk, V = v·Wvᵀ + bv and, for each of sixteen heads
  of 64 columns, the softmax along the key rows of the scaled inner products of Q's and K's rows over the head's columns.
  The kernel scales by the word 1/8, the reference divides by √64: the same on every extended real. They differ in the
  last step. The kernel scales each head's probabilities by 1/16, sums them over the heads, and lets that ONE matrix meet
  V; the reference lets each head's probabilities meet V, sums the sixteen products and divides by 16. Distributivity and
  the exchange of the two finite sums make these equal on the reals; on the extended reals distributivity fails at the
  infinities, which is where the precondition is used: finite inputs make the projections, hence every score, row
  maximum, exponential, row sum and probability, real numbers. The output layer (·Woᵀ + bo) is then the same on both sides.

  The modules: Spec states the two arrangements once, free of the programs; AttnLaw proves them equal at real-valued
  projections; AttnBody and AttnRead read the fused kernel's body entry by entry as the first arrangement of its blocks;
  AttnArray passes from the eight row blocks to the whole result; Projections reads what the first three regions and the
  host operations leave for the fourth; RefValue reads the reference's result as the second arrangement; Finite turns
  the precondition into real-valuedness; KernelRun names the kernel's result buffer after its run; Bridge joins them.
-/
import proofs.«136627_j74646531605063_2_alg».proof.Defs
import proofs.«136627_j74646531605063_2_alg».proof.Proof.Gen.Kernel
import proofs.«136627_j74646531605063_2_alg».proof.Proof.Gen.Kernel.Skeleton
import proofs.«136627_j74646531605063_2_alg».proof.Proof.Gen.Kernel.Launch
import proofs.«136627_j74646531605063_2_alg».proof.Proof.Gen.Kernel.Points
import proofs.«136627_j74646531605063_2_alg».proof.Proof.Gen.Kernel.Frame
import proofs.«136627_j74646531605063_2_alg».proof.Proof.Gen.KernelIdeal
import proofs.«136627_j74646531605063_2_alg».proof.Proof.Gen.KernelIdeal.Skeleton
import proofs.«136627_j74646531605063_2_alg».proof.Proof.Gen.KernelIdeal.Launch
import proofs.«136627_j74646531605063_2_alg».proof.Proof.Gen.KernelIdeal.Points
import proofs.«136627_j74646531605063_2_alg».proof.Proof.Gen.KernelIdeal.Frame
import proofs.«136627_j74646531605063_2_alg».proof.Proof.Gen.ReferenceIdeal
import proofs.«136627_j74646531605063_2_alg».proof.Proof.Gen.Pre_finite_inputs
import proofs.«136627_j74646531605063_2_alg».proof.Proof.Gen.ReferenceIdeal.Run
import proofs.«136627_j74646531605063_2_alg».proof.Proof.Gen.ReferenceIdeal.Read
import proofs.«136627_j74646531605063_2_alg».proof.Proof.KernelRun
import proofs.«136627_j74646531605063_2_alg».proof.Proof.Bridge
import Idealize.ShloMosaic.Adequacy
import Idealize.ShloMosaic.Init

noncomputable section

namespace Cert.Proof

open Idealize.ShloMosaic Idealize.SL.Sem

/-- The printed kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, with its result forgotten, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the eleven arguments, finite by the precondition, both idealized programs run and end with
    the same result: the kernel's result buffer holds the heads-averaged-first arrangement of the three projections, the
    reference's the mean-taken-last arrangement, and at real-valued projections the two are one function. -/
theorem algebraic : Cert.algebraic_KernelIdeal_ReferenceIdeal := by
  intro m ρ m' ρ' hpre hagree
  refine ⟨fun c => Cert.KernelIdeal.Gen.W8 m ρ c (Proc.devRef .tc Cert.KernelIdeal.main_v11),
    Cert.KernelIdeal.KRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v42_eq, e0, e1, e2, e3, e4, e5, e6, e7, e8, e9, e10]
  exact (Cert.Bridge.kernel_value m ρ hpre c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
